-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x512x1024 : Shape := ⟨4, ![8, 3, 512, 1024]⟩
abbrev S80x16900x2 : Shape := ⟨3, ![80, 16900, 2]⟩
abbrev S_ : Shape := ⟨0, ![]⟩

class Facts : Prop where
  bcast_S_S8x3x512x1024 : S_.BroadcastsInDim S8x3x512x1024 (![] : Fin 0 → Fin S8x3x512x1024.rank)
  reducesTo_S8x3x512x1024_S_d0_1_2_3 : S8x3x512x1024.ReducesTo [0, 1, 2, 3] S_
  h_S_ : 0 < S_.numel
  bcast_S_S80x16900x2 : S_.BroadcastsInDim S80x16900x2 (![] : Fin 0 → Fin S80x16900x2.rank)
  reducesTo_S80x16900x2_S_d0_1_2 : S80x16900x2.ReducesTo [0, 1, 2] S_

variable [Facts]

def fn {F : FTy → Type} [FloatOps F] (main_arg0 : FVec F S8x3x512x1024 .f32) (main_arg1 : FVec F S80x16900x2 .f32) : IVec S_ 1 :=
  let main_v0 : FVec F S8x3x512x1024 .f32 := Host.absf main_arg0
  let main_cst : FVec F S_ .f32 := constant S_ .f32 0x7F800000#32
  let main_v1 : FVec F S8x3x512x1024 .f32 := broadcastInDim S8x3x512x1024 ![] bcast_S_S8x3x512x1024 main_cst
  let main_v2 : IVec S8x3x512x1024 1 := cmpf .olt main_v0 main_v1
  let main_c : IVec S_ 1 := constantI S_ 1 1#1
  let main_v3 : IVec S_ 1 := (fun x v => Host.reduce IntOp.andi x v reducesTo_S8x3x512x1024_S_d0_1_2_3 h_S_) main_v2 main_c
  let main_v4 : FVec F S80x16900x2 .f32 := Host.absf main_arg1
  let main_cst_0 : FVec F S_ .f32 := constant S_ .f32 0x7F800000#32
  let main_v5 : FVec F S80x16900x2 .f32 := broadcastInDim S80x16900x2 ![] bcast_S_S80x16900x2 main_cst_0
  let main_v6 : IVec S80x16900x2 1 := cmpf .olt main_v4 main_v5
  let main_c_1 : IVec S_ 1 := constantI S_ 1 1#1
  let main_v7 : IVec S_ 1 := (fun x v => Host.reduce IntOp.andi x v reducesTo_S80x16900x2_S_d0_1_2 h_S_) main_v6 main_c_1
  let main_v8 : IVec S_ 1 := andi main_v3 main_v7
  main_v8
-- ==== Kernel.lean ====
abbrev S8x3x512x1024 : Shape := ⟨4, ![8, 3, 512, 1024]⟩
abbrev S80x16900x2 : Shape := ⟨3, ![80, 16900, 2]⟩
abbrev S80x16900x1 : Shape := ⟨3, ![80, 16900, 1]⟩
abbrev S80x16900 : Shape := ⟨2, ![80, 16900]⟩
abbrev S_ : Shape := ⟨0, ![]⟩
abbrev S80x17408 : Shape := ⟨2, ![80, 17408]⟩
abbrev S1392640 : Shape := ⟨1, ![1392640]⟩
abbrev S24x512x1024 : Shape := ⟨3, ![24, 512, 1024]⟩
abbrev S33423360 : Shape := ⟨1, ![33423360]⟩
abbrev S1x512x1024 : Shape := ⟨3, ![1, 512, 1024]⟩
abbrev S1024 : Shape := ⟨1, ![1024]⟩
abbrev S512x1024 : Shape := ⟨2, ![512, 1024]⟩
abbrev S1024x512 : Shape := ⟨2, ![1024, 512]⟩
abbrev S1024x1024 : Shape := ⟨2, ![1024, 1024]⟩
abbrev S1024x1 : Shape := ⟨2, ![1024, 1]⟩
abbrev S24x80x17408 : Shape := ⟨3, ![24, 80, 17408]⟩
abbrev S24x80x16900 : Shape := ⟨3, ![24, 80, 16900]⟩
abbrev S8x3x80x130x130 : Shape := ⟨5, ![8, 3, 80, 130, 130]⟩

abbrev nBuf : Space → Nat
  | .hbm => 111
  | .vmem => 18
  | .smem => 0
  | _ => 0

abbrev bufTy : (tb : Table) → Fin (tcTables nBuf tb) → BufTy
  | .hbm, ⟨0, _⟩ => ⟨S8x3x512x1024, .f32⟩
  | .hbm, ⟨1, _⟩ => ⟨S80x16900x2, .f32⟩
  | .hbm, ⟨2, _⟩ => ⟨S80x16900x1, .f32⟩
  | .hbm, ⟨3, _⟩ => ⟨S80x16900, .f32⟩
  | .hbm, ⟨4, _⟩ => ⟨S80x16900x1, .f32⟩
  | .hbm, ⟨5, _⟩ => ⟨S80x16900, .f32⟩
  | .hbm, ⟨6, _⟩ => ⟨S80x16900, .f32⟩
  | .hbm, ⟨7, _⟩ => ⟨S80x16900, .f32⟩
  | .hbm, ⟨8, _⟩ => ⟨S80x16900, .f32⟩
  | .hbm, ⟨9, _⟩ => ⟨S80x16900, .f32⟩
  | .hbm, ⟨10, _⟩ => ⟨S80x16900, .i32⟩
  | .hbm, ⟨11, _⟩ => ⟨S80x16900, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S80x16900, .i32⟩
  | .hbm, ⟨19, _⟩ => ⟨S80x16900, .i32⟩
  | .hbm, ⟨20, _⟩ => ⟨S_, .i32⟩
  | .hbm, ⟨21, _⟩ => ⟨S80x16900, .i32⟩
  | .hbm, ⟨22, _⟩ => ⟨S80x16900, .i1⟩
  | .hbm, ⟨23, _⟩ => ⟨S_, .i32⟩
  | .hbm, ⟨24, _⟩ => ⟨S80x16900, .i32⟩
  | .hbm, ⟨25, _⟩ => ⟨S80x16900, .i1⟩
  | .hbm, ⟨26, _⟩ => ⟨S_, .i32⟩
  | .hbm, ⟨27, _⟩ => ⟨S_, .i1⟩
  | .hbm, ⟨28, _⟩ => ⟨S80x16900, .i1⟩
  | .hbm, ⟨29, _⟩ => ⟨S80x16900, .i1⟩
  | .hbm, ⟨30, _⟩ => ⟨S80x16900, .i1⟩
  | .hbm, ⟨31, _⟩ => ⟨S80x16900, .i32⟩
  | .hbm, ⟨32, _⟩ => ⟨S80x16900, .i32⟩
  | .hbm, ⟨33, _⟩ => ⟨S80x16900, .i32⟩
  | .hbm, ⟨34, _⟩ => ⟨S_, .i32⟩
  | .hbm, ⟨35, _⟩ => ⟨S80x16900, .i32⟩
  | .hbm, ⟨36, _⟩ => ⟨S80x16900, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S80x16900, .i32⟩
  | .hbm, ⟨44, _⟩ => ⟨S80x16900, .i32⟩
  | .hbm, ⟨45, _⟩ => ⟨S_, .i32⟩
  | .hbm, ⟨46, _⟩ => ⟨S80x16900, .i32⟩
  | .hbm, ⟨47, _⟩ => ⟨S80x16900, .i1⟩
  | .hbm, ⟨48, _⟩ => ⟨S_, .i32⟩
  | .hbm, ⟨49, _⟩ => ⟨S80x16900, .i32⟩
  | .hbm, ⟨50, _⟩ => ⟨S80x16900, .i1⟩
  | .hbm, ⟨51, _⟩ => ⟨S_, .i32⟩
  | .hbm, ⟨52, _⟩ => ⟨S_, .i1⟩
  | .hbm, ⟨53, _⟩ => ⟨S80x16900, .i1⟩
  | .hbm, ⟨54, _⟩ => ⟨S80x16900, .i1⟩
  | .hbm, ⟨55, _⟩ => ⟨S80x16900, .i1⟩
  | .hbm, ⟨56, _⟩ => ⟨S80x16900, .i32⟩
  | .hbm, ⟨57, _⟩ => ⟨S80x16900, .i32⟩
  | .hbm, ⟨58, _⟩ => ⟨S80x16900, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S80x16900, .i32⟩
  | .hbm, ⟨63, _⟩ => ⟨S80x16900, .i32⟩
  | .hbm, ⟨64, _⟩ => ⟨S_, .i32⟩
  | .hbm, ⟨65, _⟩ => ⟨S80x16900, .i32⟩
  | .hbm, ⟨66, _⟩ => ⟨S80x16900, .i32⟩
  | .hbm, ⟨67, _⟩ => ⟨S_, .i32⟩
  | .hbm, ⟨68, _⟩ => ⟨S80x16900, .i32⟩
  | .hbm, ⟨69, _⟩ => ⟨S80x16900, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S80x16900, .i32⟩
  | .hbm, ⟨74, _⟩ => ⟨S80x16900, .i32⟩
  | .hbm, ⟨75, _⟩ => ⟨S_, .i32⟩
  | .hbm, ⟨76, _⟩ => ⟨S80x16900, .i32⟩
  | .hbm, ⟨77, _⟩ => ⟨S80x16900, .i32⟩
  | .hbm, ⟨78, _⟩ => ⟨S_, .i32⟩
  | .hbm, ⟨79, _⟩ => ⟨S_, .i32⟩
  | .hbm, ⟨80, _⟩ => ⟨S80x17408, .i32⟩
  | .hbm, ⟨81, _⟩ => ⟨S1392640, .i32⟩
  | .hbm, ⟨82, _⟩ => ⟨S_, .i32⟩
  | .hbm, ⟨83, _⟩ => ⟨S_, .i32⟩
  | .hbm, ⟨84, _⟩ => ⟨S80x17408, .i32⟩
  | .hbm, ⟨85, _⟩ => ⟨S1392640, .i32⟩
  | .hbm, ⟨86, _⟩ => ⟨S_, .i32⟩
  | .hbm, ⟨87, _⟩ => ⟨S_, .i32⟩
  | .hbm, ⟨88, _⟩ => ⟨S80x17408, .i32⟩
  | .hbm, ⟨89, _⟩ => ⟨S1392640, .i32⟩
  | .hbm, ⟨90, _⟩ => ⟨S_, .i32⟩
  | .hbm, ⟨91, _⟩ => ⟨S_, .i32⟩
  | .hbm, ⟨92, _⟩ => ⟨S80x17408, .i32⟩
  | .hbm, ⟨93, _⟩ => ⟨S1392640, .i32⟩
  | .hbm, ⟨94, _⟩ => ⟨S_, .i32⟩
  | .hbm, ⟨95, _⟩ => ⟨S_, .f32⟩
  | .hbm, ⟨96, _⟩ => ⟨S80x17408, .f32⟩
  | .hbm, ⟨97, _⟩ => ⟨S1392640, .f32⟩
  | .hbm, ⟨98, _⟩ => ⟨S_, .i32⟩
  | .hbm, ⟨99, _⟩ => ⟨S_, .f32⟩
  | .hbm, ⟨100, _⟩ => ⟨S80x17408, .f32⟩
  | .hbm, ⟨101, _⟩ => ⟨S1392640, .f32⟩
  | .hbm, ⟨102, _⟩ => ⟨S24x512x1024, .f32⟩
  | .hbm, ⟨103, _⟩ => ⟨S24x512x1024, .bf16⟩
  | .hbm, ⟨104, _⟩ => ⟨S24x512x1024, .f32⟩
  | .hbm, ⟨105, _⟩ => ⟨S24x512x1024, .f32⟩
  | .hbm, ⟨106, _⟩ => ⟨S24x512x1024, .bf16⟩
  | .hbm, ⟨107, _⟩ => ⟨S33423360, .f32⟩
  | .hbm, ⟨108, _⟩ => ⟨S24x80x17408, .f32⟩
  | .hbm, ⟨109, _⟩ => ⟨S24x80x16900, .f32⟩
  | .hbm, ⟨110, _⟩ => ⟨S8x3x80x130x130, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024, .i32⟩
  | .local _ .vmem, ⟨5, _⟩ => ⟨S1024, .i32⟩
  | .local _ .vmem, ⟨6, _⟩ => ⟨S1024, .i32⟩
  | .local _ .vmem, ⟨7, _⟩ => ⟨S1024, .i32⟩
  | .local _ .vmem, ⟨8, _⟩ => ⟨S1024, .i32⟩
  | .local _ .vmem, ⟨9, _⟩ => ⟨S1024, .i32⟩
  | .local _ .vmem, ⟨10, _⟩ => ⟨S1024, .i32⟩
  | .local _ .vmem, ⟨11, _⟩ => ⟨S1024, .i32⟩
  | .local _ .vmem, ⟨12, _⟩ => ⟨S1024, .f32⟩
  | .local _ .vmem, ⟨13, _⟩ => ⟨S1024, .f32⟩
  | .local _ .vmem, ⟨14, _⟩ => ⟨S1024, .f32⟩
  | .local _ .vmem, ⟨15, _⟩ => ⟨S1024, .f32⟩
  | .local _ .vmem, ⟨16, _⟩ => ⟨S1024, .f32⟩
  | .local _ .vmem, ⟨17, _⟩ => ⟨S1024, .f32⟩
  | _, _ => ⟨S8x3x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v10 : Ref sig .tc := ⟨.hbm, 33, rfl⟩
abbrev main_c_0 : Ref sig .tc := ⟨.hbm, 34, rfl⟩
abbrev main_v11 : Ref sig .tc := ⟨.hbm, 35, rfl⟩
abbrev main_v12 : Ref sig .tc := ⟨.hbm, 36, rfl⟩
abbrev main_c_1 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v13 : Ref sig .tc := ⟨.hbm, 58, rfl⟩
abbrev main_c_2 : Ref sig .tc := ⟨.hbm, 59, rfl⟩
abbrev main_c_3 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v14 : Ref sig .tc := ⟨.hbm, 66, rfl⟩
abbrev main_c_4 : Ref sig .tc := ⟨.hbm, 67, rfl⟩
abbrev main_v15 : Ref sig .tc := ⟨.hbm, 68, rfl⟩
abbrev main_v16 : Ref sig .tc := ⟨.hbm, 69, rfl⟩
abbrev main_c_5 : Ref sig .tc := ⟨.hbm, 70, rfl⟩
abbrev main_c_6 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v17 : Ref sig .tc := ⟨.hbm, 77, rfl⟩
abbrev main_c_7 : Ref sig .tc := ⟨.hbm, 78, rfl⟩
abbrev main_call4_v0 : Ref sig .tc := ⟨.hbm, 79, rfl⟩
abbrev main_v18 : Ref sig .tc := ⟨.hbm, 80, rfl⟩
abbrev main_v19 : Ref sig .tc := ⟨.hbm, 81, rfl⟩
abbrev main_c_8 : Ref sig .tc := ⟨.hbm, 82, rfl⟩
abbrev main_call5_v0 : Ref sig .tc := ⟨.hbm, 83, rfl⟩
abbrev main_v20 : Ref sig .tc := ⟨.hbm, 84, rfl⟩
abbrev main_v21 : Ref sig .tc := ⟨.hbm, 85, rfl⟩
abbrev main_c_9 : Ref sig .tc := ⟨.hbm, 86, rfl⟩
abbrev main_call6_v0 : Ref sig .tc := ⟨.hbm, 87, rfl⟩
abbrev main_v22 : Ref sig .tc := ⟨.hbm, 88, rfl⟩
abbrev main_v23 : Ref sig .tc := ⟨.hbm, 89, rfl⟩
abbrev main_c_10 : Ref sig .tc := ⟨.hbm, 90, rfl⟩
abbrev main_call7_v0 : Ref sig .tc := ⟨.hbm, 91, rfl⟩
abbrev main_v24 : Ref sig .tc := ⟨.hbm, 92, rfl⟩
abbrev main_v25 : Ref sig .tc := ⟨.hbm, 93, rfl⟩
abbrev main_c_11 : Ref sig .tc := ⟨.hbm, 94, rfl⟩
abbrev main_call8_v0 : Ref sig .tc := ⟨.hbm, 95, rfl⟩
abbrev main_v26 : Ref sig .tc := ⟨.hbm, 96, rfl⟩
abbrev main_v27 : Ref sig .tc := ⟨.hbm, 97, rfl⟩
abbrev main_c_12 : Ref sig .tc := ⟨.hbm, 98, rfl⟩
abbrev main_call9_v0 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![24, 80, 17], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg1 c17_i32
  let v1 : BitVec 32 := Scalar.addi v0 arg2
  let c0_i32 : BitVec 32 := 0#32
  ![v1.toNat]

def cc0_transform_8 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.muli arg0 c80_i32
  let c17_i32 : BitVec 32 := 17#32
  let v1 : BitVec 32 := Scalar.muli v0 c17_i32
  let c17_i32_0 : BitVec 32 := 17#32
  let v2 : BitVec 32 := Scalar.muli arg1 c17_i32_0
  let v3 : BitVec 32 := Scalar.addi v1 v2
  let v4 : BitVec 32 := Scalar.addi v3 arg2
  let c0_i32 : BitVec 32 := 0#32
  ![v4.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

class Facts₀ : Prop where
  slices_S80x16900x2_S80x16900x1_0_0_0 : S80x16900x2.Slices ![0, 0, 0] S80x16900x1
  shapeCasts_S80x16900x1_S80x16900 : S80x16900x1.ShapeCasts S80x16900
  slices_S80x16900x2_S80x16900x1_0_0_1 : S80x16900x2.Slices ![0, 0, 1] S80x16900x1
  bcast_S_S80x16900 : S_.BroadcastsInDim S80x16900 (![] : Fin 0 → Fin S80x16900.rank)
  pads_S80x16900_S80x17408_000_05080 : S80x16900.Pads (![0, 0] : Fin 2 → Nat) ![0, 508] ![0, 0] S80x17408
  h_S_ : 0 < S_.numel
  shapeCasts_S80x17408_S1392640 : S80x17408.ShapeCasts S1392640
  shapeCasts_S8x3x512x1024_S24x512x1024 : S8x3x512x1024.ShapeCasts S24x512x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024_S1024_0 : ∀ a, (![0] : Fin 1 → Nat) a + S1024.size a ≤ S1024.size a
  h_S1024 : 0 < S1024.numel
  shapeCasts_S1024_S1024 : S1024.ShapeCasts S1024
  iota_S1024x512_d1_w32 : S1024x512.Iotas .tc 32 [1]
  iota_S1024x1024_d1_w32 : S1024x1024.Iotas .tc 32 [1]
  shapeCasts_S1024_S1024x1 : S1024.ShapeCasts S1024x1
  broadcasts_S1024x1_S1024x512 : S1024x1.Broadcasts S1024x512
  natLt_1_32 : 1 < 32
  broadcasts_S1024x1_S1024x1024 : S1024x1.Broadcasts S1024x1024
  reduces_S1024x1024_S1024 : S1024x1024.Reduces [1] S1024
  shapeCasts_S33423360_S24x80x17408 : S33423360.ShapeCasts S24x80x17408
  slices_S24x80x17408_S24x80x16900_0_0_0 : S24x80x17408.Slices ![0, 0, 0] S24x80x16900
  shapeCasts_S24x80x16900_S8x3x80x130x130 : S24x80x16900.ShapeCasts S8x3x80x130x130
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S24x512x1024.size a
  hwx0_0 : ∀ i : grid0.Coords, EltTy.bits .bf16 = 32 ∨ (Rect.block (s := S24x512x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S24x512x1024.size a
  hwx0_1 : ∀ i : grid0.Coords, EltTy.bits .bf16 = 32 ∨ (Rect.block (s := S24x512x1024) S1x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1392640.size a
  hwx0_2 : ∀ i : grid0.Coords, EltTy.bits .i32 = 32 ∨ (Rect.block (s := S1392640) S1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1392640.size a
  hwx0_3 : ∀ i : grid0.Coords, EltTy.bits .i32 = 32 ∨ (Rect.block (s := S1392640) S1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1392640.size a
  hwx0_4 : ∀ i : grid0.Coords, EltTy.bits .i32 = 32 ∨ (Rect.block (s := S1392640) S1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1392640.size a
  hwx0_5 : ∀ i : grid0.Coords, EltTy.bits .i32 = 32 ∨ (Rect.block (s := S1392640) S1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1392640.size a
  hwx0_6 : ∀ i : grid0.Coords, EltTy.bits .f32 = 32 ∨ (Rect.block (s := S1392640) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1392640.size a
  hwx0_7 : ∀ i : grid0.Coords, EltTy.bits .f32 = 32 ∨ (Rect.block (s := S1392640) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S33423360.size a
  hwx0_8 : ∀ i : grid0.Coords, EltTy.bits .f32 = 32 ∨ (Rect.block (s := S33423360) S1024.size (cc0_transform_8 i) (hinb0_8 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v31) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v35) S1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x3x512x1024 : Shape := ⟨4, ![8, 3, 512, 1024]⟩
abbrev S80x16900x2 : Shape := ⟨3, ![80, 16900, 2]⟩
abbrev S80x16900x1 : Shape := ⟨3, ![80, 16900, 1]⟩
abbrev S80x16900 : Shape := ⟨2, ![80, 16900]⟩
abbrev S_ : Shape := ⟨0, ![]⟩
abbrev S8x3x80x16900 : Shape := ⟨4, ![8, 3, 80, 16900]⟩
abbrev S1x1x80x16900 : Shape := ⟨4, ![1, 1, 80, 16900]⟩
abbrev S8x3x80x130x130 : Shape := ⟨5, ![8, 3, 80, 130, 130]⟩

abbrev nBuf : Space → Nat
  | .hbm => 190
  | .vmem => 0
  | .smem => 0
  | _ => 0

abbrev hbmTy0_0 (i : Nat) : BufTy := match i % 128 with
  | 0 => ⟨S8x3x512x1024, .f32⟩
  | 1 => ⟨S80x16900x2, .f32⟩
  | 2 => ⟨S80x16900x1, .f32⟩
  | 3 => ⟨S80x16900, .f32⟩
  | 4 => ⟨S80x16900x1, .f32⟩
  | 5 => ⟨S80x16900, .f32⟩
  | 6 => ⟨S80x16900, .f32⟩
  | 7 => ⟨S80x16900, .f32⟩
  | 8 => ⟨S80x16900, .f32⟩
  | 9 => ⟨S80x16900, .f32⟩
  | 10 => ⟨S80x16900, .i32⟩
  | 11 => ⟨S80x16900, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S80x16900, .i32⟩
  | 19 => ⟨S80x16900, .i32⟩
  | 20 => ⟨S_, .i32⟩
  | 21 => ⟨S80x16900, .i32⟩
  | 22 => ⟨S80x16900, .i1⟩
  | 23 => ⟨S_, .i32⟩
  | 24 => ⟨S80x16900, .i32⟩
  | 25 => ⟨S80x16900, .i1⟩
  | 26 => ⟨S_, .i32⟩
  | 27 => ⟨S_, .i1⟩
  | 28 => ⟨S80x16900, .i1⟩
  | 29 => ⟨S80x16900, .i1⟩
  | 30 => ⟨S80x16900, .i1⟩
  | 31 => ⟨S80x16900, .i32⟩
  | 32 => ⟨S80x16900, .i32⟩
  | 33 => ⟨S80x16900, .i32⟩
  | 34 => ⟨S_, .i32⟩
  | 35 => ⟨S80x16900, .i32⟩
  | 36 => ⟨S80x16900, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S80x16900, .i32⟩
  | 44 => ⟨S80x16900, .i32⟩
  | 45 => ⟨S_, .i32⟩
  | 46 => ⟨S80x16900, .i32⟩
  | 47 => ⟨S80x16900, .i1⟩
  | 48 => ⟨S_, .i32⟩
  | 49 => ⟨S80x16900, .i32⟩
  | 50 => ⟨S80x16900, .i1⟩
  | 51 => ⟨S_, .i32⟩
  | 52 => ⟨S_, .i1⟩
  | 53 => ⟨S80x16900, .i1⟩
  | 54 => ⟨S80x16900, .i1⟩
  | 55 => ⟨S80x16900, .i1⟩
  | 56 => ⟨S80x16900, .i32⟩
  | 57 => ⟨S80x16900, .i32⟩
  | 58 => ⟨S80x16900, .i32⟩
  | 59 => ⟨S_, .i32⟩
  | 60 => ⟨S_, .i32⟩
  | 61 => ⟨S_, .i32⟩
  | 62 => ⟨S80x16900, .i32⟩
  | 63 => ⟨S80x16900, .i32⟩
  | 64 => ⟨S_, .i32⟩
  | 65 => ⟨S80x16900, .i32⟩
  | 66 => ⟨S80x16900, .i32⟩
  | 67 => ⟨S_, .i32⟩
  | 68 => ⟨S80x16900, .i32⟩
  | 69 => ⟨S80x16900, .i32⟩
  | 70 => ⟨S_, .i32⟩
  | 71 => ⟨S_, .i32⟩
  | 72 => ⟨S_, .i32⟩
  | 73 => ⟨S80x16900, .i32⟩
  | 74 => ⟨S80x16900, .i32⟩
  | 75 => ⟨S_, .i32⟩
  | 76 => ⟨S80x16900, .i32⟩
  | 77 => ⟨S80x16900, .i32⟩
  | 78 => ⟨S_, .i32⟩
  | 79 => ⟨S80x16900, .i32⟩
  | 80 => ⟨S80x16900, .i1⟩
  | 81 => ⟨S_, .i32⟩
  | 82 => ⟨S80x16900, .i32⟩
  | 83 => ⟨S80x16900, .i32⟩
  | 84 => ⟨S80x16900, .i32⟩
  | 85 => ⟨S_, .i32⟩
  | 86 => ⟨S80x16900, .i32⟩
  | 87 => ⟨S80x16900, .i1⟩
  | 88 => ⟨S_, .i32⟩
  | 89 => ⟨S80x16900, .i32⟩
  | 90 => ⟨S80x16900, .i32⟩
  | 91 => ⟨S80x16900, .i32⟩
  | 92 => ⟨S80x16900x1, .i32⟩
  | 93 => ⟨S80x16900x1, .i32⟩
  | 94 => ⟨S80x16900x2, .i32⟩
  | 95 => ⟨S8x3x80x16900, .f32⟩
  | 96 => ⟨S_, .i32⟩
  | 97 => ⟨S80x16900, .i32⟩
  | 98 => ⟨S80x16900, .i1⟩
  | 99 => ⟨S_, .i32⟩
  | 100 => ⟨S80x16900, .i32⟩
  | 101 => ⟨S80x16900, .i32⟩
  | 102 => ⟨S80x16900, .i32⟩
  | 103 => ⟨S_, .i32⟩
  | 104 => ⟨S80x16900, .i32⟩
  | 105 => ⟨S80x16900, .i1⟩
  | 106 => ⟨S_, .i32⟩
  | 107 => ⟨S80x16900, .i32⟩
  | 108 => ⟨S80x16900, .i32⟩
  | 109 => ⟨S80x16900, .i32⟩
  | 110 => ⟨S80x16900x1, .i32⟩
  | 111 => ⟨S80x16900x1, .i32⟩
  | 112 => ⟨S80x16900x2, .i32⟩
  | 113 => ⟨S8x3x80x16900, .f32⟩
  | 114 => ⟨S_, .i32⟩
  | 115 => ⟨S80x16900, .i32⟩
  | 116 => ⟨S80x16900, .i1⟩
  | 117 => ⟨S_, .i32⟩
  | 118 => ⟨S80x16900, .i32⟩
  | 119 => ⟨S80x16900, .i32⟩
  | 120 => ⟨S80x16900, .i32⟩
  | 121 => ⟨S_, .i32⟩
  | 122 => ⟨S80x16900, .i32⟩
  | 123 => ⟨S80x16900, .i1⟩
  | 124 => ⟨S_, .i32⟩
  | 125 => ⟨S80x16900, .i32⟩
  | 126 => ⟨S80x16900, .i32⟩
  | 127 => ⟨S80x16900, .i32⟩
  | _ => ⟨S8x3x512x1024, .f32⟩

abbrev hbmTy0_1 (i : Nat) : BufTy := match i % 128 with
  | 0 => ⟨S80x16900x1, .i32⟩
  | 1 => ⟨S80x16900x1, .i32⟩
  | 2 => ⟨S80x16900x2, .i32⟩
  | 3 => ⟨S8x3x80x16900, .f32⟩
  | 4 => ⟨S_, .i32⟩
  | 5 => ⟨S80x16900, .i32⟩
  | 6 => ⟨S80x16900, .i1⟩
  | 7 => ⟨S_, .i32⟩
  | 8 => ⟨S80x16900, .i32⟩
  | 9 => ⟨S80x16900, .i32⟩
  | 10 => ⟨S80x16900, .i32⟩
  | 11 => ⟨S_, .i32⟩
  | 12 => ⟨S80x16900, .i32⟩
  | 13 => ⟨S80x16900, .i1⟩
  | 14 => ⟨S_, .i32⟩
  | 15 => ⟨S80x16900, .i32⟩
  | 16 => ⟨S80x16900, .i32⟩
  | 17 => ⟨S80x16900, .i32⟩
  | 18 => ⟨S80x16900x1, .i32⟩
  | 19 => ⟨S80x16900x1, .i32⟩
  | 20 => ⟨S80x16900x2, .i32⟩
  | 21 => ⟨S8x3x80x16900, .f32⟩
  | 22 => ⟨S_, .f32⟩
  | 23 => ⟨S80x16900, .f32⟩
  | 24 => ⟨S80x16900, .f32⟩
  | 25 => ⟨S1x1x80x16900, .f32⟩
  | 26 => ⟨S8x3x80x16900, .f32⟩
  | 27 => ⟨S8x3x80x16900, .f32⟩
  | 28 => ⟨S_, .f32⟩
  | 29 => ⟨S80x16900, .f32⟩
  | 30 => ⟨S80x16900, .f32⟩
  | 31 => ⟨S1x1x80x16900, .f32⟩
  | 32 => ⟨S8x3x80x16900, .f32⟩
  | 33 => ⟨S8x3x80x16900, .f32⟩
  | 34 => ⟨S1x1x80x16900, .f32⟩
  | 35 => ⟨S8x3x80x16900, .f32⟩
  | 36 => ⟨S8x3x80x16900, .f32⟩
  | 37 => ⟨S_, .f32⟩
  | 38 => ⟨S80x16900, .f32⟩
  | 39 => ⟨S80x16900, .f32⟩
  | 40 => ⟨S1x1x80x16900, .f32⟩
  | 41 => ⟨S8x3x80x16900, .f32⟩
  | 42 => ⟨S8x3x80x16900, .f32⟩
  | 43 => ⟨S8x3x80x16900, .f32⟩
  | 44 => ⟨S_, .f32⟩
  | 45 => ⟨S80x16900, .f32⟩
  | 46 => ⟨S80x16900, .f32⟩
  | 47 => ⟨S1x1x80x16900, .f32⟩
  | 48 => ⟨S8x3x80x16900, .f32⟩
  | 49 => ⟨S8x3x80x16900, .f32⟩
  | 50 => ⟨S1x1x80x16900, .f32⟩
  | 51 => ⟨S8x3x80x16900, .f32⟩
  | 52 => ⟨S8x3x80x16900, .f32⟩
  | 53 => ⟨S8x3x80x16900, .f32⟩
  | 54 => ⟨S1x1x80x16900, .f32⟩
  | 55 => ⟨S8x3x80x16900, .f32⟩
  | 56 => ⟨S8x3x80x16900, .f32⟩
  | 57 => ⟨S1x1x80x16900, .f32⟩
  | 58 => ⟨S8x3x80x16900, .f32⟩
  | 59 => ⟨S8x3x80x16900, .f32⟩
  | 60 => ⟨S8x3x80x16900, .f32⟩
  | 61 => ⟨S8x3x80x130x130, .f32⟩
  | _ => ⟨S8x3x512x1024, .f32⟩

abbrev hbmTy (i : Nat) : BufTy := match i / 128 with
  | 0 => hbmTy0_0 i
  | 1 => hbmTy0_1 i
  | _ => ⟨S8x3x512x1024, .f32⟩

abbrev bufTy : (tb : Table) → Fin (tcTables nBuf tb) → BufTy
  | .hbm, ⟨i, _⟩ => hbmTy i
  | _, _ => ⟨S8x3x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v10 : Ref sig .tc := ⟨.hbm, 33, rfl⟩
abbrev main_c_0 : Ref sig .tc := ⟨.hbm, 34, rfl⟩
abbrev main_v11 : Ref sig .tc := ⟨.hbm, 35, rfl⟩
abbrev main_v12 : Ref sig .tc := ⟨.hbm, 36, rfl⟩
abbrev main_c_1 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v13 : Ref sig .tc := ⟨.hbm, 58, rfl⟩
abbrev main_c_2 : Ref sig .tc := ⟨.hbm, 59, rfl⟩
abbrev main_c_3 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v14 : Ref sig .tc := ⟨.hbm, 66, rfl⟩
abbrev main_c_4 : Ref sig .tc := ⟨.hbm, 67, rfl⟩
abbrev main_v15 : Ref sig .tc := ⟨.hbm, 68, rfl⟩
abbrev main_v16 : Ref sig .tc := ⟨.hbm, 69, rfl⟩
abbrev main_c_5 : Ref sig .tc := ⟨.hbm, 70, rfl⟩
abbrev main_c_6 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v17 : Ref sig .tc := ⟨.hbm, 77, rfl⟩
abbrev main_c_7 : Ref sig .tc := ⟨.hbm, 78, rfl⟩
abbrev main_v18 : Ref sig .tc := ⟨.hbm, 79, rfl⟩
abbrev main_v19 : Ref sig .tc := ⟨.hbm, 80, rfl⟩
abbrev main_c_8 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_c_9 : Ref sig .tc := ⟨.hbm, 85, rfl⟩
abbrev main_v23 : Ref sig .tc := ⟨.hbm, 86, rfl⟩
abbrev main_v24 : Ref sig .tc := ⟨.hbm, 87, rfl⟩
abbrev main_c_10 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_c_11 : Ref sig .tc := ⟨.hbm, 96, rfl⟩
abbrev main_v32 : Ref sig .tc := ⟨.hbm, 97, rfl⟩
abbrev main_v33 : Ref sig .tc := ⟨.hbm, 98, rfl⟩
abbrev main_c_12 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_c_13 : Ref sig .tc := ⟨.hbm, 103, rfl⟩
abbrev main_v37 : Ref sig .tc := ⟨.hbm, 104, rfl⟩
abbrev main_v38 : Ref sig .tc := ⟨.hbm, 105, rfl⟩
abbrev main_c_14 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_c_15 : Ref sig .tc := ⟨.hbm, 114, rfl⟩
abbrev main_v46 : Ref sig .tc := ⟨.hbm, 115, rfl⟩
abbrev main_v47 : Ref sig .tc := ⟨.hbm, 116, rfl⟩
abbrev main_c_16 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_c_17 : Ref sig .tc := ⟨.hbm, 121, rfl⟩
abbrev main_v51 : Ref sig .tc := ⟨.hbm, 122, rfl⟩
abbrev main_v52 : Ref sig .tc := ⟨.hbm, 123, rfl⟩
abbrev main_c_18 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_c_19 : Ref sig .tc := ⟨.hbm, 132, rfl⟩
abbrev main_v60 : Ref sig .tc := ⟨.hbm, 133, rfl⟩
abbrev main_v61 : Ref sig .tc := ⟨.hbm, 134, rfl⟩
abbrev main_c_20 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_c_21 : Ref sig .tc := ⟨.hbm, 139, rfl⟩
abbrev main_v65 : Ref sig .tc := ⟨.hbm, 140, rfl⟩
abbrev main_v66 : Ref sig .tc := ⟨.hbm, 141, rfl⟩
abbrev main_c_22 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_cst : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_cst_23 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_cst_24 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_cst_25 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩

abbrev nD : Nat := 1
abbrev τ : Topo := Topo.v7x

variable {F : FTy → Type} [FloatOps F]

class Facts₀ : Prop where
  slices_S80x16900x2_S80x16900x1_0_0_0 : S80x16900x2.Slices ![0, 0, 0] S80x16900x1
  shapeCasts_S80x16900x1_S80x16900 : S80x16900x1.ShapeCasts S80x16900
  slices_S80x16900x2_S80x16900x1_0_0_1 : S80x16900x2.Slices ![0, 0, 1] S80x16900x1
  bcast_S_S80x16900 : S_.BroadcastsInDim S80x16900 (![] : Fin 0 → Fin S80x16900.rank)
  bcast_S80x16900_S80x16900x1_0_1 : S80x16900.BroadcastsInDim S80x16900x1 (![0, 1] : Fin 2 → Fin S80x16900x1.rank)
  concatenates_S80x16900x1_S80x16900x1_S80x16900x2_d2 : Shape.Concatenates [S80x16900x1, S80x16900x1] S80x16900x2 2
  bcast_S80x16900_S1x1x80x16900_2_3 : S80x16900.BroadcastsInDim S1x1x80x16900 (![2, 3] : Fin 2 → Fin S1x1x80x16900.rank)
  bcast_S1x1x80x16900_S8x3x80x16900_0_1_2_3 : S1x1x80x16900.BroadcastsInDim S8x3x80x16900 (![0, 1, 2, 3] : Fin 4 → Fin S8x3x80x16900.rank)
  shapeCasts_S8x3x80x16900_S8x3x80x130x130 : S8x3x80x16900.ShapeCasts S8x3x80x130x130
  gather_S8x3x512x1024_S80x16900x2_S8x3x80x16900_01_23_n_n_23_2_8311_wf : GatherDims.WF S8x3x512x1024 S80x16900x2 S8x3x80x16900 [0, 1] [2, 3] [] [2, 3] [] 2 ![8, 3, 1, 1]

variable [Facts₀]

def gather_S8x3x512x1024_S80x16900x2_S8x3x80x16900_01_23_n_n_23_2_8311 : GatherDims S8x3x512x1024 S80x16900x2 S8x3x80x16900 where
  offsetDims := [0, 1]
  collapsedSliceDims := [2, 3]
  operandBatchingDims := []
  startIndicesBatchingDims := []
  startIndexMap := [2, 3]
  indexVectorDim := 2
  sliceSizes := ![8, 3, 1, 1]
  wf := gather_S8x3x512x1024_S80x16900x2_S8x3x80x16900_01_23_n_n_23_2_8311_wf

class Facts : Prop extends Facts₀ where

variable [Facts]
-- ==== Proof.Spec.lean ====
/-
  The resampling written once, away from both programs.

  A sample map gives every point (f, k) of 80 faces × 16900 points a coordinate pair (xs, ys). Each is split into
  its floor and its fractional part (wx, wy). The floors, as 32-bit integers, give two columns — x0 and x0 + 1, each
  wrapped into [0, 1024) by the floored remainder — and two rows — y0 and y0 + 1, each clamped into [0, 511]. The
  result at (b, c, f, p, q), with k = 130 p + q, is the bilinear blend of the four image entries of plane (b, c) at those
  rows and columns:

    v00 (1 − wx)(1 − wy) + v01 wx (1 − wy) + v10 (1 − wx) wy + v11 wx wy,

  products and sums associated to the left, on the extended reals. The prelude (floors, fractions, wrapped columns,
  clamped rows) is spelt with the vector operations themselves, so that either program's own prelude is this text;
  the blend is spelt index by index.
-/
import Idealize.ShloMosaic.PureOps.Ideal
import Idealize.ShloMosaic.Lib.ValueIdx

noncomputable section

namespace Cert.Resample

open Idealize.ShloMosaic Idealize.ShloMosaic.ValueIdx

abbrev Simg : Shape := ⟨4, ![8, 3, 512, 1024]⟩
abbrev Smap : Shape := ⟨3, ![80, 16900, 2]⟩
abbrev Scol : Shape := ⟨3, ![80, 16900, 1]⟩
abbrev Spts : Shape := ⟨2, ![80, 16900]⟩
abbrev Ssc : Shape := ⟨0, ![]⟩
abbrev Sout : Shape := ⟨5, ![8, 3, 80, 130, 130]⟩

theorem slices0 : Smap.Slices ![0, 0, 0] Scol := by decide
theorem slices1 : Smap.Slices ![0, 0, 1] Scol := by decide
theorem casts : Scol.ShapeCasts Spts := by decide
theorem bc : Ssc.BroadcastsInDim Spts (![] : Fin 0 → Fin Spts.rank) := by decide

/-! ## The prelude, as vector operations of the sample map -/

/-- The x coordinates: component 0 of every pair. -/
def xs (sm : FVec Ideal Smap .f32) : FVec Ideal Spts .f32 :=
  shapeCast Spts (extractStridedSlice Scol ![0, 0, 0] sm slices0) casts
/-- The y coordinates: component 1 of every pair. -/
def ys (sm : FVec Ideal Smap .f32) : FVec Ideal Spts .f32 :=
  shapeCast Spts (extractStridedSlice Scol ![0, 0, 1] sm slices1) casts
/-- The fractional part of x. -/
def wx (sm : FVec Ideal Smap .f32) : FVec Ideal Spts .f32 := subf (xs sm) (Host.floor (xs sm))
/-- The fractional part of y. -/
def wy (sm : FVec Ideal Smap .f32) : FVec Ideal Spts .f32 := subf (ys sm) (Host.floor (ys sm))
/-- The floor of x as an integer. -/
def x0 (sm : FVec Ideal Smap .f32) : IVec Spts 32 := fptosi 32 (Host.floor (xs sm))
/-- The floor of y as an integer. -/
def y0 (sm : FVec Ideal Smap .f32) : IVec Spts 32 := fptosi 32 (Host.floor (ys sm))
/-- One, everywhere. -/
def ones : IVec Spts 32 := broadcastInDim Spts ![] bc (constantI Ssc 32 1#32)

/-- The divisor the floored remainder really divides by: the given one, or 1 when that is 0. -/
def divisor (n : IVec Ssc 32) : IVec Ssc 32 := select (cmpi .eq (id n) (constantI Ssc 32 0#32)) (constantI Ssc 32 1#32) (id n)

/-- The floored remainder of every entry by one scalar: the truncated remainder, moved by one divisor when it is
    non-zero and its sign is not the divisor's. -/
def wrap (v : IVec Spts 32) (n : IVec Ssc 32) : IVec Spts 32 :=
  select
    (andi
      (cmpi .ne (cmpi .slt (Host.remsi v (broadcastInDim Spts ![] bc (divisor n))) (broadcastInDim Spts ![] bc (constantI Ssc 32 0#32)))
        (broadcastInDim Spts ![] bc (cmpi .slt (divisor n) (constantI Ssc 32 0#32))))
      (cmpi .ne (Host.remsi v (broadcastInDim Spts ![] bc (divisor n))) (broadcastInDim Spts ![] bc (constantI Ssc 32 0#32))))
    (addi (Host.remsi v (broadcastInDim Spts ![] bc (divisor n))) (broadcastInDim Spts ![] bc (divisor n)))
    (Host.remsi v (broadcastInDim Spts ![] bc (divisor n)))

/-- Every entry clamped between two scalars. -/
def clamp (v : IVec Spts 32) (lo hi : IVec Ssc 32) : IVec Spts 32 :=
  minsi (broadcastInDim Spts ![] bc (id hi)) (maxsi (broadcastInDim Spts ![] bc (id lo)) v)

/-- The left column, wrapped. -/
def x0w (sm : FVec Ideal Smap .f32) : IVec Spts 32 := wrap (x0 sm) (constantI Ssc 32 1024#32)
/-- The right column, wrapped. -/
def x1w (sm : FVec Ideal Smap .f32) : IVec Spts 32 := wrap (addi (x0 sm) ones) (constantI Ssc 32 1024#32)
/-- The upper row, clamped. -/
def y0c (sm : FVec Ideal Smap .f32) : IVec Spts 32 := clamp (y0 sm) (constantI Ssc 32 0#32) (constantI Ssc 32 511#32)
/-- The lower row, clamped. -/
def y1c (sm : FVec Ideal Smap .f32) : IVec Spts 32 := clamp (addi (y0 sm) ones) (constantI Ssc 32 0#32) (constantI Ssc 32 511#32)

/-! ## The blend, index by index -/

/-- Point k = 130 p + q of face f. -/
def pt (f : Fin 80) (p q : Fin 130) : Spts.Idx := ix2 f ⟨p.val * 130 + q.val, by omega⟩

/-- The image entry of plane (b, c) at a row word and a column word, each read as a natural number. The remainders
    only make the expression total: the rows that occur are below 512 and the columns below 1024. -/
def corner (x : FVec Ideal Simg .f32) (b : Fin 8) (c : Fin 3) (row col : BitVec 32) : EReal :=
  x (ix4 b c ⟨row.toNat % 512, Nat.mod_lt _ (by decide)⟩ ⟨col.toNat % 1024, Nat.mod_lt _ (by decide)⟩)

/-- The number one, as both programs spell it. -/
def one : EReal := Ideal.ofBits .f32 0x3F800000#32

/-- The bilinear blend of four corner values by two weights, associated as both programs associate it. -/
def blend (v00 v01 v10 v11 wx wy : EReal) : EReal :=
  v00 * (one - wx) * (one - wy) + v01 * wx * (one - wy) + v10 * (one - wx) * wy + v11 * wx * wy

/-- The resampled array. -/
def G (x : FVec Ideal Simg .f32) (sm : FVec Ideal Smap .f32) : FVec Ideal Sout .f32 := fun i =>
  blend (corner x (i 0) (i 1) (y0c sm (pt (i 2) (i 3) (i 4))) (x0w sm (pt (i 2) (i 3) (i 4))))
    (corner x (i 0) (i 1) (y0c sm (pt (i 2) (i 3) (i 4))) (x1w sm (pt (i 2) (i 3) (i 4))))
    (corner x (i 0) (i 1) (y1c sm (pt (i 2) (i 3) (i 4))) (x0w sm (pt (i 2) (i 3) (i 4))))
    (corner x (i 0) (i 1) (y1c sm (pt (i 2) (i 3) (i 4))) (x1w sm (pt (i 2) (i 3) (i 4))))
    (wx sm (pt (i 2) (i 3) (i 4))) (wy sm (pt (i 2) (i 3) (i 4)))

end Cert.Resample

end
-- ==== Proof.Terms.lean ====
/-
  The two programs' own arrangements of the resampling, written away from the programs.

  The reference gathers: it makes each row and column word non-negative the way array indexing does (the extent added
  to a negative word), pairs a row array and a column array into start indices, gathers one image entry per plane and
  point, spreads each weight over the 8 × 3 planes, and blends. The kernel flattens: each prelude array is padded from
  16900 to 17408 points per face and laid out flat, and the image, 24 planes of 512 × 1024, is split into itself and
  its difference from itself (a rounding that is the identity on the extended reals).
-/
import proofs.«147664_j56410100465682_2_alg».proof.Proof.Spec

noncomputable section

namespace Cert.Resample

open Idealize.ShloMosaic Idealize.ShloMosaic.ValueIdx

abbrev Sgat : Shape := ⟨4, ![8, 3, 80, 16900]⟩
abbrev Sone : Shape := ⟨4, ![1, 1, 80, 16900]⟩
abbrev Spad : Shape := ⟨2, ![80, 17408]⟩
abbrev Sflat : Shape := ⟨1, ![1392640]⟩
abbrev Spl : Shape := ⟨3, ![24, 512, 1024]⟩

theorem bcCol : Spts.BroadcastsInDim Scol (![0, 1] : Fin 2 → Fin Scol.rank) := by decide
theorem cat : Shape.Concatenates [Scol, Scol] Smap 2 := by decide
theorem bcOne : Spts.BroadcastsInDim Sone (![2, 3] : Fin 2 → Fin Sone.rank) := by decide
theorem bcGat : Sone.BroadcastsInDim Sgat (![0, 1, 2, 3] : Fin 4 → Fin Sgat.rank) := by decide
theorem castOut : Sgat.ShapeCasts Sout := by decide
theorem gwf : GatherDims.WF Simg Smap Sgat [0, 1] [2, 3] [] [2, 3] [] 2 ![8, 3, 1, 1] := by decide
theorem pads : Spts.Pads (![0, 0] : Fin 2 → Nat) ![0, 508] ![0, 0] Spad := by decide
theorem hsc : 0 < Ssc.numel := by decide
theorem castFlat : Spad.ShapeCasts Sflat := by decide
theorem castPl : Simg.ShapeCasts Spl := by decide
theorem bitsLt : FTy.bf16.bits < FTy.f32.bits := by decide

/-! ## The reference's arrangement -/

/-- One image entry per plane and point: offsets on the two plane axes, the row and column axes collapsed and
    addressed by a start index of two components. -/
def gdims : GatherDims Simg Smap Sgat where
  offsetDims := [0, 1]
  collapsedSliceDims := [2, 3]
  operandBatchingDims := []
  startIndicesBatchingDims := []
  startIndexMap := [2, 3]
  indexVectorDim := 2
  sliceSizes := ![8, 3, 1, 1]
  wf := gwf

/-- A word array made non-negative the way array indexing does: the extent added to every negative word. -/
def norm (v : IVec Spts 32) (n : BitVec 32) : IVec Spts 32 :=
  select (cmpi .slt v (broadcastInDim Spts ![] bc (constantI Ssc 32 0#32))) (addi v (broadcastInDim Spts ![] bc (constantI Ssc 32 n))) v

/-- A row array and a column array paired into start indices. -/
def idxPair (row col : IVec Spts 32) : IVec Smap 32 :=
  concatenate Smap 2 [⟨Scol, broadcastInDim Scol ![0, 1] bcCol (norm row 512#32)⟩, ⟨Scol, broadcastInDim Scol ![0, 1] bcCol (norm col 1024#32)⟩] cat

/-- The image entries at a row array and a column array, for every plane. -/
def take (x : FVec Ideal Simg .f32) (row col : IVec Spts 32) : FVec Ideal Sgat .f32 :=
  Host.gather gdims x (idxPair row col)

/-- A weight per point spread over the planes. -/
def spread (w : FVec Ideal Spts .f32) : FVec Ideal Sgat .f32 :=
  broadcastInDim Sgat ![0, 1, 2, 3] bcGat (broadcastInDim Sone ![2, 3] bcOne w)

/-- One minus a weight. -/
def oneMinus (w : FVec Ideal Spts .f32) : FVec Ideal Spts .f32 :=
  subf (broadcastInDim Spts ![] bc (constant Ssc .f32 0x3F800000#32)) w

/-- The reference's result as one term of the image and the sample map. -/
def refTerm (x : FVec Ideal Simg .f32) (sm : FVec Ideal Smap .f32) : FVec Ideal Sout .f32 :=
  shapeCast Sout
    (addf (addf (addf
      (mulf (mulf (take x (y0c sm) (x0w sm)) (spread (oneMinus (wx sm)))) (spread (oneMinus (wy sm))))
      (mulf (mulf (take x (y0c sm) (x1w sm)) (spread (wx sm))) (spread (oneMinus (wy sm)))))
      (mulf (mulf (take x (y1c sm) (x0w sm)) (spread (oneMinus (wx sm)))) (spread (wy sm))))
      (mulf (mulf (take x (y1c sm) (x1w sm)) (spread (wx sm))) (spread (wy sm))))
    castOut

/-! ## The kernel's operands -/

/-- A word per point, padded with zero words to 17408 points per face and laid out flat. -/
def padI (v : IVec Spts 32) : IVec Sflat 32 :=
  shapeCast Sflat (pad Spad ![0, 0] ![0, 508] ![0, 0] v (id (constantI Ssc 32 0#32)) pads hsc) castFlat

/-- A weight per point, padded with zeros to 17408 points per face and laid out flat. -/
def padF (w : FVec Ideal Spts .f32) : FVec Ideal Sflat .f32 :=
  shapeCast Sflat (pad Spad ![0, 0] ![0, 508] ![0, 0] w (sitofp (F := Ideal) .f32 (constantI Ssc 32 0#32)) pads hsc) castFlat

/-- The image as 24 planes. -/
def planes (x : FVec Ideal Simg .f32) : FVec Ideal Spl .f32 := shapeCast Spl x castPl

/-- The image's leading part: the planes rounded to the narrow format. -/
def imgHi (x : FVec Ideal Simg .f32) : FVec Ideal Spl .bf16 := truncf .bf16 (planes x) bitsLt

/-- The image's remaining part: what the rounding left out, rounded. -/
def imgLo (x : FVec Ideal Simg .f32) : FVec Ideal Spl .bf16 :=
  truncf .bf16 (subf (planes x) (extf .f32 (truncf .bf16 (planes x) bitsLt) bitsLt)) bitsLt

end Cert.Resample

end
-- ==== Proof.KernelSpec.lean ====
/-
  The kernel's arrangement of the resampling, index by index.

  A selector over positions is one at the position a word names and zero elsewhere. A row word and a column word pick
  an entry out of a pair of 512 × 1024 planes: the row selector is multiplied into both planes and the two products are
  added (entry w of the selected row), that row is multiplied by the column selector entry by entry, and the products
  are summed over the columns. The kernel's flat result holds, at plane bc and flat point j, the blend of the four
  picked corners by the two weights at j; the planes are bc's planes of the image's two parts.
-/
import proofs.«147664_j56410100465682_2_alg».proof.Proof.Terms

noncomputable section

namespace Cert.Resample

open Idealize.ShloMosaic Idealize.ShloMosaic.ValueIdx
open scoped BigOperators

/-- A selector entry: one where position k is the word, zero elsewhere. -/
def hot (word : BitVec 32) (k : ℕ) : EReal :=
  (((BitVec.setWidth 32 (IntOp.cmpi .eq (BitVec.ofNat 32 k) word)).toInt : ℝ) : EReal)

theorem hot_eq (word : BitVec 32) (k : ℕ) : hot word k = if BitVec.ofNat 32 k = word then 1 else 0 := by
  unfold hot IntOp.cmpi
  by_cases h : BitVec.ofNat 32 k = word
  · rw [if_pos h]; simp [h]
  · rw [if_neg h]
    have hb : (BitVec.ofNat 32 k == word) = false := by simpa using h
    rw [hb]
    simp

/-- The entry a row word and a column word pick out of a pair of planes. -/
def pickG (hi lo : Fin 512 → Fin 1024 → EReal) (yw xw : BitVec 32) : EReal :=
  ∑ w : Fin 1024, ((∑ k : Fin 512, hot yw k.val * hi k w) + (∑ k : Fin 512, hot yw k.val * lo k w)) * hot xw w.val

/-- The kernel's flat result: 24 planes × 80 faces × 17408 padded points. -/
abbrev Sres : Shape := ⟨1, ![33423360]⟩
/-- The same as planes × faces × padded points. -/
abbrev Sres3 : Shape := ⟨3, ![24, 80, 17408]⟩
/-- The points that are not padding. -/
abbrev Skeep : Shape := ⟨3, ![24, 80, 16900]⟩

theorem castRes3 : Sres.ShapeCasts Sres3 := by decide
theorem sliceKeep : Sres3.Slices ![0, 0, 0] Skeep := by decide
theorem castKeep : Skeep.ShapeCasts Sout := by decide

/-- The plane of a flat result position. -/
def planeOf (n : Sres.Idx) : Fin 24 := ⟨(n 0).val / 1392640, by have h : (n 0).val < 33423360 := (n 0).isLt; omega⟩
/-- The flat point of a flat result position. -/
def pointOf (n : Sres.Idx) : Sflat.Idx := ix1 ⟨(n 0).val % 1392640, Nat.mod_lt _ (by decide)⟩

/-- The kernel's flat result as one function of its eight operands. -/
def KF (hi lo : FVec Ideal Spl .bf16) (Y0 Y1 X0 X1 : IVec Sflat 32) (WX WY : FVec Ideal Sflat .f32) : FVec Ideal Sres .f32 :=
  fun n =>
    blend
      (pickG (fun k w => hi (ix3 (planeOf n) k w)) (fun k w => lo (ix3 (planeOf n) k w)) (Y0 (pointOf n)) (X0 (pointOf n)))
      (pickG (fun k w => hi (ix3 (planeOf n) k w)) (fun k w => lo (ix3 (planeOf n) k w)) (Y0 (pointOf n)) (X1 (pointOf n)))
      (pickG (fun k w => hi (ix3 (planeOf n) k w)) (fun k w => lo (ix3 (planeOf n) k w)) (Y1 (pointOf n)) (X0 (pointOf n)))
      (pickG (fun k w => hi (ix3 (planeOf n) k w)) (fun k w => lo (ix3 (planeOf n) k w)) (Y1 (pointOf n)) (X1 (pointOf n)))
      (WX (pointOf n)) (WY (pointOf n))

/-- The kernel program's result from its flat result: laid out as planes × faces × padded points, the padding cut
    off, and laid out as the result's five axes. -/
def unflat (a : FVec Ideal Sres .f32) : FVec Ideal Sout .f32 :=
  shapeCast Sout (extractStridedSlice Skeep ![0, 0, 0] (shapeCast Sres3 a castRes3) sliceKeep) castKeep

end Cert.Resample

end
-- ==== Proof.LibColumn.lean ====
/-
  Two layout operations of a row reduction kept as a column, read at an index.

  A sum over the last axis of an [a, b] array is an [a] vector; `keepdims` views it as an [a, 1] column, and dividing
  the array by it broadcasts the column back to [a, b].  Entry `p` of the vector is entry (p, 0) of the column, and
  entry (p, c) of the broadcast column is entry (p, 0) of the column, whatever `c`.
-/
import Idealize.ShloMosaic.Lib.ValueIdx
import Idealize.ShloMosaic.Lib.Pipeline.Value

namespace Cert.CausalRows

open Idealize.ShloMosaic Idealize.ShloMosaic.ValueIdx

variable {α : Type}

/-- An `[a]` vector cast to an `[a, 1]` column reads, at `(p, z)`, the vector at `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    rw [Shape.rowMajor_val_one, Shape.rowMajor_val_two]
    show p.val = p.val * 1 + z.val
    omega)

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.CausalRows
-- ==== Proof.LibDot.lean ====
/-
  A plain matrix product read at an index.

  A two-operand contraction whose dimension numbers say "rows of the left operand, columns of the right operand,
  contract the left operand's axis 1 with the right operand's axis 0, no batch axes" is the ordinary matrix
  product: its entry (p, c), accumulated into the zero splat, is the sum over q of left (p, q) times right (q, c).
-/
import Idealize.ShloMosaic.Lib.ValueIdx
import Idealize.ShloMosaic.PureOps.Ideal.Laws

namespace Cert.PlainDot

open Idealize.ShloMosaic Idealize.ShloMosaic.ValueIdx

section Coordinates
variable {m k n : ℕ} (D : DotDims ⟨2, ![m, k]⟩ ⟨2, ![k, n]⟩ ⟨2, ![m, n]⟩)

/-- The contraction shape of such a product has one axis … -/
theorem contr_rank (hlc : D.lhsContracting = [1]) : D.contr.rank = 1 := by
  rw [D.rank_contr, hlc]; rfl

/-- … of the shared extent. -/
theorem contr_size (hlc : D.lhsContracting = [1]) :
    D.contr.size ⟨0, by rw [contr_rank D hlc]; exact Nat.one_pos⟩ = k := by
  have h := D.size_contr 0 (by rw [hlc]; exact Nat.one_pos)
  refine h.trans ?_
  simp only [hlc]
  rfl

/-- Two coordinates of one index at equal positions are equal as numbers. -/
private theorem coord_congr {s : Shape} (i : s.Idx) (p q : ℕ) (hp : p < s.rank) (hq : q < s.rank) (h : p = q) :
    (i ⟨p, hp⟩).val = (i ⟨q, hq⟩).val := by subst h; rfl

/-- The left operand's row coordinate is the result's row coordinate. -/
theorem lhs_row (hln : D.lhsNonContracting = [0]) (hlb : D.lhsBatch = [])
    (i : (⟨2, ![m, n]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The right operand's column coordinate is the result's column coordinate. -/
theorem rhs_col (hln : D.lhsNonContracting = [0]) (hlb : D.lhsBatch = [])
    (hrn : D.rhsNonContracting = [1]) (hrb : D.rhsBatch = [])
    (i : (⟨2, ![m, n]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Coordinates

/-- The matrix product into the zero accumulator, read at (p, c). -/
theorem matmul_zero_apply {m k n : ℕ} {φ₁ φ₂ : FTy} (D : DotDims ⟨2, ![m, k]⟩ ⟨2, ![k, n]⟩ ⟨2, ![m, n]⟩)
    (hlc : D.lhsContracting = [1]) (hrc : D.rhsContracting = [0])
    (hln : D.lhsNonContracting = [0]) (hrn : D.rhsNonContracting = [1])
    (hlb : D.lhsBatch = []) (hrb : D.rhsBatch = [])
    (prec : Option ContractPrecision)
    (lhs : FVec Ideal ⟨2, ![m, k]⟩ φ₁) (rhs : FVec Ideal ⟨2, ![k, n]⟩ φ₂) (p : Fin m) (c : Fin n) :
    FloatOps.matmul D prec lhs rhs (constant (F := Ideal) ⟨2, ![m, n]⟩ .f32 0x00000000#32) (ix2 p c)
      = ∑ q : Fin k, lhs (ix2 p q) * rhs (ix2 q c) := by
  rw [Ideal.matmul_constant_zero_apply,
    ← Equiv.sum_comp (contrEquiv1 D k (contr_rank D hlc) (contr_size D hlc)).symm]
  refine Finset.sum_congr rfl fun q _ => ?_
  have hq := contrEquiv1_symm_val D k (contr_rank D hlc) (contr_size D hlc) q
  have el : D.lhsIdx (ix2 p c) ((contrEquiv1 D k (contr_rank D hlc) (contr_size D hlc)).symm q) = ix2 p q :=
    funext fun a => Fin.ext (by
      match a with
      | ⟨0, _⟩ => exact lhs_row D hln hlb _ _
      | ⟨1, _⟩ => exact (D.lhsIdx_val_of_single hlc _ _).trans hq)
  have er : D.rhsIdx (ix2 p c) ((contrEquiv1 D k (contr_rank D hlc) (contr_size D hlc)).symm q) = ix2 q c :=
    funext fun a => Fin.ext (by
      match a with
      | ⟨0, _⟩ => exact (D.rhsIdx_val_of_single hrc _ _).trans hq
      | ⟨1, _⟩ => exact rhs_col D hln hlb hrn hrb _ _)
  rw [el, er]

end Cert.PlainDot
-- ==== Proof.PayRead.lean ====
/-
  The kernel body's arithmetic, read one entry at a time.

  At a point the body holds two 512 × 1024 image planes (the plane and what its rounding left out), four word vectors
  of 1024 entries (two rows and two columns per sample) and two weight vectors. It builds, per sample r, a row selector
  over the 512 rows — entry k is one where k is the sample's row word, zero elsewhere — and multiplies it into both
  planes: entry (r, w) of the product is the sum over k of selector times plane, for each plane, and the two are added.
  A column selector over the 1024 columns is built the same way; multiplying the selected rows by it entry by entry
  and summing over the columns leaves one number per sample and corner. The four corners are blended by the weights.
-/
import proofs.«147664_j56410100465682_2_alg».proof.Proof.Gen.KernelIdeal.Skeleton
import proofs.«147664_j56410100465682_2_alg».proof.Proof.KernelSpec
import proofs.«147664_j56410100465682_2_alg».proof.Proof.LibColumn
import proofs.«147664_j56410100465682_2_alg».proof.Proof.LibDot
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.Resample
open scoped BigOperators

/-- The lane counter along the 512 rows, at (r, k), is k. -/
theorem rowIota_apply (r : Fin 1024) (k : Fin 512) :
    iota .tc S1024x512 32 [1] iota_S1024x512_d1_w32 (ix2 r k) = BitVec.ofNat 32 k.val := by
  show BitVec.ofNat 32 (0 * 512 + k.val) = _
  rw [Nat.zero_mul, Nat.zero_add]

/-- The lane counter along the 1024 columns, at (r, w), is w. -/
theorem colIota_apply (r : Fin 1024) (w : Fin 1024) :
    iota .tc S1024x1024 32 [1] iota_S1024x1024_d1_w32 (ix2 r w) = BitVec.ofNat 32 w.val := by
  show BitVec.ofNat 32 (0 * 1024 + w.val) = _
  rw [Nat.zero_mul, Nat.zero_add]

/-- The row selector the body builds from a word vector, at (r, k). -/
theorem rowSel_apply (yv : Vec Ideal S1024 .i32) (r : Fin 1024) (k : Fin 512) :
    k0_pay6 (F := Ideal) yv (ix2 r k) = hot (yv (ix1 r)) k.val := by
  unfold k0_pay6
  show (((BitVec.setWidth 32 (IntOp.cmpi .eq (iota .tc S1024x512 32 [1] iota_S1024x512_d1_w32 (ix2 r k))
      (broadcastTo S1024x512 (shapeCast S1024x1 (shapeCast S1024 yv shapeCasts_S1024_S1024) shapeCasts_S1024_S1024x1)
        broadcasts_S1024x1_S1024x512 (ix2 r k)))).toInt : ℝ) : EReal) = _
  rw [Cert.CausalRows.broadcastTo_a1_ab_apply, Cert.CausalRows.shapeCast_a_a1_apply, shapeCast_self, rowIota_apply]
  rfl

/-- The column selector the body builds from a word vector, at (r, w) (the left column's). -/
theorem colSel_apply (xv : Vec Ideal S1024 .i32) (r : Fin 1024) (w : Fin 1024) :
    k0_pay7 (F := Ideal) xv (ix2 r w) = hot (xv (ix1 r)) w.val := by
  unfold k0_pay7
  show (((BitVec.setWidth 32 (IntOp.cmpi .eq (iota .tc S1024x1024 32 [1] iota_S1024x1024_d1_w32 (ix2 r w))
      (broadcastTo S1024x1024 (shapeCast S1024x1 (shapeCast S1024 xv shapeCasts_S1024_S1024) shapeCasts_S1024_S1024x1)
        broadcasts_S1024x1_S1024x1024 (ix2 r w)))).toInt : ℝ) : EReal) = _
  rw [Cert.CausalRows.broadcastTo_a1_ab_apply, Cert.CausalRows.shapeCast_a_a1_apply, shapeCast_self, colIota_apply]
  rfl

/-- The same for the right column's selector. -/
theorem colSel'_apply (xv : Vec Ideal S1024 .i32) (r : Fin 1024) (w : Fin 1024) :
    k0_pay8 (F := Ideal) xv (ix2 r w) = hot (xv (ix1 r)) w.val := by
  unfold k0_pay8
  show (((BitVec.setWidth 32 (IntOp.cmpi .eq (iota .tc S1024x1024 32 [1] iota_S1024x1024_d1_w32 (ix2 r w))
      (broadcastTo S1024x1024 (shapeCast S1024x1 (shapeCast S1024 xv shapeCasts_S1024_S1024) shapeCasts_S1024_S1024x1)
        broadcasts_S1024x1_S1024x1024 (ix2 r w)))).toInt : ℝ) : EReal) = _
  rw [Cert.CausalRows.broadcastTo_a1_ab_apply, Cert.CausalRows.shapeCast_a_a1_apply, shapeCast_self, colIota_apply]
  rfl

/-- A plane as the body holds it, at (k, w). -/
theorem plane_apply (v : Vec Ideal S1x512x1024 .bf16) (k : Fin 512) (w : Fin 1024) :
    k0_pay2 (F := Ideal) v (ix2 k w) = v (ix3 (0 : Fin 1) k w) := by
  unfold k0_pay2
  exact shapeCast_1ab_ab_apply v _ k w

/-- The same for the second plane. -/
theorem plane'_apply (v : Vec Ideal S1x512x1024 .bf16) (k : Fin 512) (w : Fin 1024) :
    k0_pay3 (F := Ideal) v (ix2 k w) = v (ix3 (0 : Fin 1) k w) := by
  unfold k0_pay3
  exact shapeCast_1ab_ab_apply v _ k w

/-- Two products of one selector with two planes, added, at (r, w). -/
theorem twoProducts_apply (sel : FVec Ideal S1024x512 .bf16) (p1 p2 : FVec Ideal S512x1024 .bf16) (r w : Fin 1024) :
    addf (matmul dot_S1024x512_S512x1024_S1024x1024_1_0_0_1_n_n none sel p1 (constant (F := Ideal) S1024x1024 .f32 0x00000000#32))
        (matmul dot_S1024x512_S512x1024_S1024x1024_1_0_0_1_n_n none sel p2 (constant (F := Ideal) S1024x1024 .f32 0x00000000#32)) (ix2 r w)
      = (∑ k : Fin 512, sel (ix2 r k) * p1 (ix2 k w)) + (∑ k : Fin 512, sel (ix2 r k) * p2 (ix2 k w)) := by
  show FloatOps.matmul dot_S1024x512_S512x1024_S1024x1024_1_0_0_1_n_n none sel p1 (constant (F := Ideal) S1024x1024 .f32 0x00000000#32) (ix2 r w)
      + FloatOps.matmul dot_S1024x512_S512x1024_S1024x1024_1_0_0_1_n_n none sel p2 (constant (F := Ideal) S1024x1024 .f32 0x00000000#32) (ix2 r w) = _
  rw [Cert.PlainDot.matmul_zero_apply dot_S1024x512_S512x1024_S1024x1024_1_0_0_1_n_n rfl rfl rfl rfl rfl rfl none sel p1 r w,
    Cert.PlainDot.matmul_zero_apply dot_S1024x512_S512x1024_S1024x1024_1_0_0_1_n_n rfl rfl rfl rfl rfl rfl none sel p2 r w]

/-- The rows the upper row words select, at (r, w). -/
theorem rows_apply (hi lo : Vec Ideal S1x512x1024 .bf16) (yv : Vec Ideal S1024 .i32) (r w : Fin 1024) :
    k0_pay9 (F := Ideal) hi lo yv (ix2 r w)
      = (∑ k : Fin 512, hot (yv (ix1 r)) k.val * hi (ix3 (0 : Fin 1) k w)) + (∑ k : Fin 512, hot (yv (ix1 r)) k.val * lo (ix3 (0 : Fin 1) k w)) := by
  unfold k0_pay9
  show addf (matmul dot_S1024x512_S512x1024_S1024x1024_1_0_0_1_n_n none (k0_pay6 (F := Ideal) yv) (k0_pay2 hi) (constant (F := Ideal) S1024x1024 .f32 0x00000000#32))
        (matmul dot_S1024x512_S512x1024_S1024x1024_1_0_0_1_n_n none (k0_pay6 (F := Ideal) yv) (k0_pay3 lo) (constant (F := Ideal) S1024x1024 .f32 0x00000000#32)) (ix2 r w) = _
  rw [twoProducts_apply]
  simp only [rowSel_apply, plane_apply, plane'_apply]

/-- A product of two 1024 × 1024 arrays summed over the columns, at r. -/
theorem laneSum_apply (a b : FVec Ideal S1024x1024 .f32) (r : Fin 1024) :
    multiReduction .add [1] S1024 (mulf a b) 0x00000000#32 reduces_S1024x1024_S1024 (.inl rfl) rfl (ix1 r)
      = ∑ w : Fin 1024, a (ix2 r w) * b (ix2 r w) := by
  refine (Ideal.multiReduction_add_single (mulf a b) 0x00000000#32 reduces_S1024x1024_S1024 (.inl rfl) rfl (ix1 r)).trans ?_
  refine Finset.sum_congr rfl fun w _ => ?_
  have e : (reduces_S1024x1024_S1024).lift (ix1 r) w = ix2 r w :=
    funext fun c => Fin.ext (by match c with | ⟨0, _⟩ => rfl | ⟨1, _⟩ => rfl)
  rw [e]
  rfl

/-- What the body stores at sample r of a point's block, from the point's eight loaded blocks. -/
def blockVal (hi lo : Vec Ideal S1x512x1024 .bf16) (y0 y1 x0 x1 : Vec Ideal S1024 .i32) (wx wy : Vec Ideal S1024 .f32)
    (r : Fin 1024) : EReal :=
  blend
    (pickG (fun k w => hi (ix3 (0 : Fin 1) k w)) (fun k w => lo (ix3 (0 : Fin 1) k w)) (y0 (ix1 r)) (x0 (ix1 r)))
    (pickG (fun k w => hi (ix3 (0 : Fin 1) k w)) (fun k w => lo (ix3 (0 : Fin 1) k w)) (y0 (ix1 r)) (x1 (ix1 r)))
    (pickG (fun k w => hi (ix3 (0 : Fin 1) k w)) (fun k w => lo (ix3 (0 : Fin 1) k w)) (y1 (ix1 r)) (x0 (ix1 r)))
    (pickG (fun k w => hi (ix3 (0 : Fin 1) k w)) (fun k w => lo (ix3 (0 : Fin 1) k w)) (y1 (ix1 r)) (x1 (ix1 r)))
    (wx (ix1 r)) (wy (ix1 r))

/-- The stored vector, entry by entry. -/
theorem stored_apply (hi lo : Vec Ideal S1x512x1024 .bf16) (y0 y1 x0 x1 : Vec Ideal S1024 .i32) (wx wy : Vec Ideal S1024 .f32)
    (r : Fin 1024) :
    k0_pay1 (F := Ideal) (k0_pay2 hi) (k0_pay3 lo) (k0_pay4 wx) (k0_pay5 wy) (k0_pay6 y1) (k0_pay7 x0) (k0_pay8 x1) (k0_pay9 hi lo y0) (ix1 r)
      = blockVal hi lo y0 y1 x0 x1 wx wy r := by
  unfold k0_pay1 k0_pay4 k0_pay5
  rw [shapeCast_self, shapeCast_self]
  show
    ((multiReduction .add [1] S1024 (mulf (k0_pay9 (F := Ideal) hi lo y0) (k0_pay7 x0)) 0x00000000#32 reduces_S1024x1024_S1024 (.inl rfl) rfl (ix1 r)
          * (Cert.Resample.one - wx (ix1 r)) * (Cert.Resample.one - wy (ix1 r))
        + multiReduction .add [1] S1024 (mulf (k0_pay9 (F := Ideal) hi lo y0) (k0_pay8 x1)) 0x00000000#32 reduces_S1024x1024_S1024 (.inl rfl) rfl (ix1 r)
          * wx (ix1 r) * (Cert.Resample.one - wy (ix1 r)))
      + multiReduction .add [1] S1024
          (mulf (addf (matmul dot_S1024x512_S512x1024_S1024x1024_1_0_0_1_n_n none (k0_pay6 (F := Ideal) y1) (k0_pay2 hi) (constant (F := Ideal) S1024x1024 .f32 0x00000000#32))
            (matmul dot_S1024x512_S512x1024_S1024x1024_1_0_0_1_n_n none (k0_pay6 (F := Ideal) y1) (k0_pay3 lo) (constant (F := Ideal) S1024x1024 .f32 0x00000000#32))) (k0_pay7 x0))
          0x00000000#32 reduces_S1024x1024_S1024 (.inl rfl) rfl (ix1 r)
          * (Cert.Resample.one - wx (ix1 r)) * wy (ix1 r))
      + multiReduction .add [1] S1024
          (mulf (addf (matmul dot_S1024x512_S512x1024_S1024x1024_1_0_0_1_n_n none (k0_pay6 (F := Ideal) y1) (k0_pay2 hi) (constant (F := Ideal) S1024x1024 .f32 0x00000000#32))
            (matmul dot_S1024x512_S512x1024_S1024x1024_1_0_0_1_n_n none (k0_pay6 (F := Ideal) y1) (k0_pay3 lo) (constant (F := Ideal) S1024x1024 .f32 0x00000000#32))) (k0_pay8 x1))
          0x00000000#32 reduces_S1024x1024_S1024 (.inl rfl) rfl (ix1 r)
          * wx (ix1 r) * wy (ix1 r) = _
  rw [laneSum_apply, laneSum_apply, laneSum_apply, laneSum_apply]
  simp only [rows_apply, twoProducts_apply, rowSel_apply, plane_apply, plane'_apply, colSel_apply, colSel'_apply]
  rfl

end Cert.KernelIdeal.Body

end
-- ==== Proof.GridFacts.lean ====
/-
  Where each window's block sits, for every grid point at once.

  The grid has 24 × 80 × 17 points, numbered t = (plane · 80 + face) · 17 + tile, so a point's coordinates are
  t / 1360, (t / 17) mod 80 and t mod 17. Each window's index map is an affine expression of the coordinates in 32-bit
  words that never wraps: the two image windows sit on the plane, the six per-sample windows on the flat tile
  face · 17 + tile = t mod 1360, the result window on plane · 1360 + face · 17 + tile = t.
-/
import proofs.«147664_j56410100465682_2_alg».proof.Proof.Gen.KernelIdeal
import Idealize.ShloMosaic.Lib.Affine

namespace Cert.KernelIdeal.Grid

open Idealize.ShloMosaic Cert.KernelIdeal Cert.KernelIdeal.Gen

/-! ## The index maps as expressions of the coordinates -/

/-- The result window's map: plane · 1360 + face · 17 + tile. -/
theorem map_res (i : grid0.Coords) :
    cc0_transform_8 i (0 : Fin 1) = (i 0).val * 1360 + (i 1).val * 17 + (i 2).val := by
  have r0 : (i 0).val < 24 := (i 0).isLt
  have r1 : (i 1).val < 80 := (i 1).isLt
  have r2 : (i 2).val < 17 := (i 2).isLt
  have h0 : Affine.IsInt (BitVec.ofNat 32 (i 0).val) (((i 0).val : Int)) := Affine.ofNat _ (by omega)
  have h1 : Affine.IsInt (BitVec.ofNat 32 (i 1).val) (((i 1).val : Int)) := Affine.ofNat _ (by omega)
  have h2 : Affine.IsInt (BitVec.ofNat 32 (i 2).val) (((i 2).val : Int)) := Affine.ofNat _ (by omega)
  have c80 : Affine.IsInt 80#32 (80) := Affine.ofNat _ (by omega)
  have c17 : Affine.IsInt 17#32 (17) := Affine.ofNat _ (by omega)
  have v0 : Affine.IsInt _ (80 * ((i 0).val : Int)) := Affine.muli h0 c80 (by omega)
  have v1 : Affine.IsInt _ (1360 * ((i 0).val : Int)) := Affine.muli v0 c17 (by omega)
  have v2 : Affine.IsInt _ (17 * ((i 1).val : Int)) := Affine.muli h1 c17 (by omega)
  have v3 : Affine.IsInt _ (1360 * ((i 0).val : Int) + 17 * ((i 1).val : Int)) := Affine.addi v1 v2 (by omega)
  have v4 : Affine.IsInt _ (1360 * ((i 0).val : Int) + 17 * ((i 1).val : Int) + ((i 2).val : Int)) := Affine.addi v3 h2 (by omega)
  have e := Affine.toNat_of v4 (by omega)
  show (Scalar.addi (Scalar.addi (Scalar.muli (Scalar.muli (BitVec.ofNat 32 (i 0).val) 80#32) 17#32)
      (Scalar.muli (BitVec.ofNat 32 (i 1).val) 17#32)) (BitVec.ofNat 32 (i 2).val)).toNat = _
  omega

/-- A per-sample window's map: face · 17 + tile (the six maps are one expression). -/
theorem map_pts (i : grid0.Coords) :
    (Scalar.addi (Scalar.muli (BitVec.ofNat 32 (i 1).val) 17#32) (BitVec.ofNat 32 (i 2).val)).toNat
      = (i 1).val * 17 + (i 2).val := by
  have r1 : (i 1).val < 80 := (i 1).isLt
  have r2 : (i 2).val < 17 := (i 2).isLt
  have h1 : Affine.IsInt (BitVec.ofNat 32 (i 1).val) (((i 1).val : Int)) := Affine.ofNat _ (by omega)
  have h2 : Affine.IsInt (BitVec.ofNat 32 (i 2).val) (((i 2).val : Int)) := Affine.ofNat _ (by omega)
  have c17 : Affine.IsInt 17#32 (17) := Affine.ofNat _ (by omega)
  have v0 : Affine.IsInt _ (17 * ((i 1).val : Int)) := Affine.muli h1 c17 (by omega)
  have v1 : Affine.IsInt _ (17 * ((i 1).val : Int) + ((i 2).val : Int)) := Affine.addi v0 h2 (by omega)
  have e := Affine.toNat_of v1 (by omega)
  omega

/-- An image window's map on axis 0: the plane. -/
theorem map_img (i : grid0.Coords) : (BitVec.ofNat 32 (i 0).val).toNat = (i 0).val := by
  have r0 : (i 0).val < 24 := (i 0).isLt
  rw [BitVec.toNat_ofNat]
  exact Nat.mod_eq_of_lt (by omega)

/-! ## The coordinates of a point -/

theorem lt_N (t : Fin grid0.N) : t.val < 32640 := by
  have h : t.val < grid0.N := t.isLt
  have e : grid0.N = 32640 := by decide
  omega

theorem stride0 : grid0.stride (0 : Fin 3) = 1360 := by decide
theorem stride1 : grid0.stride (1 : Fin 3) = 17 := by decide
theorem stride2 : grid0.stride (2 : Fin 3) = 1 := by decide

theorem coord0 (t : Fin grid0.N) : (grid0.coords t (0 : Fin 3)).val = t.val / 1360 := by
  have := lt_N t
  show t.val / grid0.stride (0 : Fin 3) % 24 = _
  rw [stride0]; omega
theorem coord1 (t : Fin grid0.N) : (grid0.coords t (1 : Fin 3)).val = t.val / 17 % 80 := by
  show t.val / grid0.stride (1 : Fin 3) % 80 = _
  rw [stride1]
theorem coord2 (t : Fin grid0.N) : (grid0.coords t (2 : Fin 3)).val = t.val % 17 := by
  show t.val / grid0.stride (2 : Fin 3) % 17 = _
  rw [stride2, Nat.div_one]

/-! ## The block indices at a point -/

/-- The result window's block index is the point's number. -/
theorem idx_res (t : Fin grid0.N) : win0_8.index t (0 : Fin 1) = t.val := by
  have := lt_N t
  show cc0_transform_8 (grid0.coords t) (0 : Fin 1) = _
  rw [map_res, coord0, coord1, coord2]
  omega

/-- The image windows sit on the point's plane. -/
theorem idx_img (t : Fin grid0.N) :
    win0_0.index t (0 : Fin 3) = t.val / 1360 ∧ win0_0.index t (1 : Fin 3) = 0 ∧ win0_0.index t (2 : Fin 3) = 0
    ∧ win0_1.index t (0 : Fin 3) = t.val / 1360 ∧ win0_1.index t (1 : Fin 3) = 0 ∧ win0_1.index t (2 : Fin 3) = 0 := by
  have e : (BitVec.ofNat 32 (grid0.coords t (0 : Fin 3)).val).toNat = t.val / 1360 := by rw [map_img, coord0]
  exact ⟨e, rfl, rfl, e, rfl, rfl⟩

/-- The per-sample windows sit on the point's flat tile. -/
theorem idx_pts (t : Fin grid0.N) :
    win0_2.index t (0 : Fin 1) = t.val % 1360 ∧ win0_3.index t (0 : Fin 1) = t.val % 1360
    ∧ win0_4.index t (0 : Fin 1) = t.val % 1360 ∧ win0_5.index t (0 : Fin 1) = t.val % 1360
    ∧ win0_6.index t (0 : Fin 1) = t.val % 1360 ∧ win0_7.index t (0 : Fin 1) = t.val % 1360 := by
  have := lt_N t
  have e : (Scalar.addi (Scalar.muli (BitVec.ofNat 32 (grid0.coords t (1 : Fin 3)).val) 17#32)
      (BitVec.ofNat 32 (grid0.coords t (2 : Fin 3)).val)).toNat = t.val % 1360 := by
    rw [map_pts, coord1, coord2]; omega
  exact ⟨e, e, e, e, e, e⟩

end Cert.KernelIdeal.Grid
-- ==== Proof.Blocks.lean ====
/-
  From the points' blocks to the kernel's flat result.

  Point t stores 1024 numbers, one per sample of its tile; they go to flat positions 1024 t … 1024 t + 1023 of the
  result. The stored number for sample r is the body's blend of what the point's blocks hold, and those blocks are the
  image planes of plane t / 1360 and positions 1024 (t mod 1360) + r of the six per-sample arrays. Since
  1024 · 1360 = 1392640 is one plane's share of the result, position n = 1024 t + r has plane n / 1392640 = t / 1360
  and flat point n mod 1392640 = 1024 (t mod 1360) + r: every block is the restriction of ONE function of the flat
  position, and the 32640 blocks tile the result, so the result is that function.
-/
import proofs.«147664_j56410100465682_2_alg».proof.Proof.Gen.KernelIdeal.Frame
import proofs.«147664_j56410100465682_2_alg».proof.Proof.PayRead
import proofs.«147664_j56410100465682_2_alg».proof.Proof.GridFacts
import Idealize.ShloMosaic.Lib.Pipeline.Value

noncomputable section

namespace Cert.KernelIdeal.Blocks

open Idealize.ShloMosaic Idealize.ShloMosaic.ValueIdx Idealize.ShloMosaic.TcCoe Idealize.SL.Sem
open Cert.KernelIdeal Cert.KernelIdeal.Gen Cert.Resample Cert.KernelIdeal.Body
open Idealize.ShloMosaic.Pipeline (Dat Cfg Window)

variable (m : (ℓ : Loc nD τ sig) → Buf (Elt Ideal) ℓ)

theorem zero1 : (![0] : Fin 1 → Nat) = fun _ => 0 := funext fun a => by
  match a with | ⟨0, _⟩ => rfl
theorem zero3 : (![0, 0, 0] : Fin 3 → Nat) = fun _ => 0 := funext fun a => by
  match a with | ⟨0, _⟩ => rfl | ⟨1, _⟩ => rfl | ⟨2, _⟩ => rfl

/-- A point's number is below the 32640 points of the grid. -/
theorem lt_N (t : Fin cfg0.N) : t.val < 32640 := by
  have h : t.val < grid0.N := t.isLt
  rw [N_0] at h
  exact h

/-- The kernel's flat result as the function of the eight operand arrays the region finds. -/
def flatOf (c : Dev nD) : FVec Ideal Sres .f32 :=
  KF (V m c main_v31) (V m c main_v34) (V m c main_v19) (V m c main_v21) (V m c main_v23) (V m c main_v25)
    (V m c main_v27) (V m c main_v29)

/-! ## The blocks a point reads -/

theorem read_hi (c : Dev nD) (t : Fin cfg0.N) (k : Fin 512) (w : Fin 1024) :
    iblk m c 0 t (ix3 (0 : Fin 1) k w) = V m c main_v31 (ix3 (⟨t.val / 1360, by have := lt_N t; omega⟩ : Fin 24) k w) := by
  obtain ⟨e0, e1, e2, -, -, -⟩ := Grid.idx_img t
  show V m c main_v31 (((cfg0.win 0).blk t).view.emb (ix3 (0 : Fin 1) k w)) = _
  refine congrArg _ (funext fun a => Fin.ext ?_)
  match a with
  | ⟨0, _⟩ => show win0_0.index t (0 : Fin 3) * 1 + 1 * 0 = t.val / 1360; omega
  | ⟨1, _⟩ => show win0_0.index t (1 : Fin 3) * 512 + 1 * k.val = k.val; omega
  | ⟨2, _⟩ => show win0_0.index t (2 : Fin 3) * 1024 + 1 * w.val = w.val; omega

theorem read_lo (c : Dev nD) (t : Fin cfg0.N) (k : Fin 512) (w : Fin 1024) :
    iblk m c 1 t (ix3 (0 : Fin 1) k w) = V m c main_v34 (ix3 (⟨t.val / 1360, by have := lt_N t; omega⟩ : Fin 24) k w) := by
  obtain ⟨-, -, -, e0, e1, e2⟩ := Grid.idx_img t
  show V m c main_v34 (((cfg0.win 1).blk t).view.emb (ix3 (0 : Fin 1) k w)) = _
  refine congrArg _ (funext fun a => Fin.ext ?_)
  match a with
  | ⟨0, _⟩ => show win0_1.index t (0 : Fin 3) * 1 + 1 * 0 = t.val / 1360; omega
  | ⟨1, _⟩ => show win0_1.index t (1 : Fin 3) * 512 + 1 * k.val = k.val; omega
  | ⟨2, _⟩ => show win0_1.index t (2 : Fin 3) * 1024 + 1 * w.val = w.val; omega

/-- The flat point of sample r of point t. -/
def ptOf (t : Fin cfg0.N) (r : Fin 1024) : Sflat.Idx :=
  ix1 ⟨(t.val % 1360) * 1024 + r.val, by omega⟩

theorem read_row0 (c : Dev nD) (t : Fin cfg0.N) (r : Fin 1024) : iblk m c 2 t (ix1 r) = V m c main_v19 (ptOf t r) := by
  obtain ⟨e, -, -, -, -, -⟩ := Grid.idx_pts t
  show V m c main_v19 (((cfg0.win 2).blk t).view.emb (ix1 r)) = _
  refine congrArg _ (funext fun a => Fin.ext ?_)
  match a with
  | ⟨0, _⟩ => show win0_2.index t (0 : Fin 1) * 1024 + 1 * r.val = (t.val % 1360) * 1024 + r.val; omega

theorem read_row1 (c : Dev nD) (t : Fin cfg0.N) (r : Fin 1024) : iblk m c 3 t (ix1 r) = V m c main_v21 (ptOf t r) := by
  obtain ⟨-, e, -, -, -, -⟩ := Grid.idx_pts t
  show V m c main_v21 (((cfg0.win 3).blk t).view.emb (ix1 r)) = _
  refine congrArg _ (funext fun a => Fin.ext ?_)
  match a with
  | ⟨0, _⟩ => show win0_3.index t (0 : Fin 1) * 1024 + 1 * r.val = (t.val % 1360) * 1024 + r.val; omega

theorem read_col0 (c : Dev nD) (t : Fin cfg0.N) (r : Fin 1024) : iblk m c 4 t (ix1 r) = V m c main_v23 (ptOf t r) := by
  obtain ⟨-, -, e, -, -, -⟩ := Grid.idx_pts t
  show V m c main_v23 (((cfg0.win 4).blk t).view.emb (ix1 r)) = _
  refine congrArg _ (funext fun a => Fin.ext ?_)
  match a with
  | ⟨0, _⟩ => show win0_4.index t (0 : Fin 1) * 1024 + 1 * r.val = (t.val % 1360) * 1024 + r.val; omega

theorem read_col1 (c : Dev nD) (t : Fin cfg0.N) (r : Fin 1024) : iblk m c 5 t (ix1 r) = V m c main_v25 (ptOf t r) := by
  obtain ⟨-, -, -, e, -, -⟩ := Grid.idx_pts t
  show V m c main_v25 (((cfg0.win 5).blk t).view.emb (ix1 r)) = _
  refine congrArg _ (funext fun a => Fin.ext ?_)
  match a with
  | ⟨0, _⟩ => show win0_5.index t (0 : Fin 1) * 1024 + 1 * r.val = (t.val % 1360) * 1024 + r.val; omega

theorem read_wx (c : Dev nD) (t : Fin cfg0.N) (r : Fin 1024) : iblk m c 6 t (ix1 r) = V m c main_v27 (ptOf t r) := by
  obtain ⟨-, -, -, -, e, -⟩ := Grid.idx_pts t
  show V m c main_v27 (((cfg0.win 6).blk t).view.emb (ix1 r)) = _
  refine congrArg _ (funext fun a => Fin.ext ?_)
  match a with
  | ⟨0, _⟩ => show win0_6.index t (0 : Fin 1) * 1024 + 1 * r.val = (t.val % 1360) * 1024 + r.val; omega

theorem read_wy (c : Dev nD) (t : Fin cfg0.N) (r : Fin 1024) : iblk m c 7 t (ix1 r) = V m c main_v29 (ptOf t r) := by
  obtain ⟨-, -, -, -, -, e⟩ := Grid.idx_pts t
  show V m c main_v29 (((cfg0.win 7).blk t).view.emb (ix1 r)) = _
  refine congrArg _ (funext fun a => Fin.ext ?_)
  match a with
  | ⟨0, _⟩ => show win0_7.index t (0 : Fin 1) * 1024 + 1 * r.val = (t.val % 1360) * 1024 + r.val; omega

/-! ## Where a point's block sits in the result -/

theorem res_emb (t : Fin cfg0.N) (r : Fin 1024) :
    ((cfg0.win 8).blk t).view.emb (ix1 r) = ix1 (⟨t.val * 1024 + r.val, by have := lt_N t; omega⟩ : Fin 33423360) := by
  have e := Grid.idx_res t
  refine funext fun a => Fin.ext ?_
  match a with
  | ⟨0, _⟩ => show win0_8.index t (0 : Fin 1) * 1024 + 1 * r.val = t.val * 1024 + r.val; omega

theorem planeOf_res (t : Fin cfg0.N) (r : Fin 1024) :
    planeOf (ix1 (⟨t.val * 1024 + r.val, by have := lt_N t; omega⟩ : Fin 33423360))
      = (⟨t.val / 1360, by have := lt_N t; omega⟩ : Fin 24) := by
  refine Fin.ext ?_
  show (t.val * 1024 + r.val) / 1392640 = t.val / 1360
  omega

theorem pointOf_res (t : Fin cfg0.N) (r : Fin 1024) :
    pointOf (ix1 (⟨t.val * 1024 + r.val, by have := lt_N t; omega⟩ : Fin 33423360)) = ptOf t r := by
  unfold pointOf ptOf
  refine congrArg ix1 (Fin.ext ?_)
  show (t.val * 1024 + r.val) % 1392640 = (t.val % 1360) * 1024 + r.val
  omega

/-! ## What a point writes back -/

set_option backward.isDefEq.respectTransparency.types false in
/-- What point t writes back is block t of the one flat function. -/
theorem flushed_eq (c : Dev nD) (t : Fin cfg0.N) :
    (dats m 0 c).flushed 8 t = ((cfg0.win 8).blk t).view.read (Elt Ideal) (flatOf m c) := by
  show (cfg0.win 8).cut (grid0.coords t) ((dats m 0 c).after 8 t) = _
  rw [after0_8]
  unfold out0_8
  rw [View.canon_unit_zero zero1]
  simp only [View.ld_unit_zero (S := S1x512x1024) zero3, View.ld_unit_zero (S := S1024) zero1]
  funext j
  obtain ⟨r, rfl⟩ : ∃ r : Fin 1024, j = ix1 r := ⟨j 0, eq_ix1 j⟩
  refine (stored_apply (iblk m c 0 t) (iblk m c 1 t) (iblk m c 2 t) (iblk m c 3 t) (iblk m c 4 t) (iblk m c 5 t)
    (iblk m c 6 t) (iblk m c 7 t) r).trans ?_
  show _ = flatOf m c (((cfg0.win 8).blk t).view.emb (ix1 r))
  rw [res_emb]
  unfold blockVal flatOf KF
  rw [planeOf_res, pointOf_res]
  have hhi : (fun (k : Fin 512) (w : Fin 1024) => iblk m c 0 t (ix3 (0 : Fin 1) k w))
      = fun k w => V m c main_v31 (ix3 (⟨t.val / 1360, by have := lt_N t; omega⟩ : Fin 24) k w) :=
    funext fun k => funext fun w => read_hi m c t k w
  have hlo : (fun (k : Fin 512) (w : Fin 1024) => iblk m c 1 t (ix3 (0 : Fin 1) k w))
      = fun k w => V m c main_v34 (ix3 (⟨t.val / 1360, by have := lt_N t; omega⟩ : Fin 24) k w) :=
    funext fun k => funext fun w => read_lo m c t k w
  rw [hhi, hlo, read_row0, read_row1, read_col0, read_col1, read_wx, read_wy]

/-! ## The blocks tile the result -/

theorem mem_blk (t : Fin cfg0.N) (i : S33423360.Idx) :
    i ∈ ((cfg0.win 8).blk t).view.set
      ↔ ∀ a : Fin 1, win0_8.index t a * S1024.size a ≤ (i a).val ∧ (i a).val < win0_8.index t a * S1024.size a + S1024.size a := by
  show i ∈ ((View.whole main_v35).slice (win0_8.rect t)).set ↔ _
  rw [View.set_slice_whole, Rect.mem_set_unit]
  exact Iff.rfl

theorem cover (i : S33423360.Idx) :
    ∃ t : Fin cfg0.N, (cfg0.win 8).flush t = true ∧ i ∈ ((cfg0.win 8).blk t).view.set := by
  have hi : (i 0).val < 33423360 := (i 0).isLt
  have hN := N_0
  let t : Fin cfg0.N := ⟨(i 0).val / 1024, by show (i 0).val / 1024 < grid0.N; omega⟩
  refine ⟨t, flush0_8 t, ?_⟩
  rw [mem_blk]
  intro a
  have e := Grid.idx_res t
  match a with
  | ⟨0, _⟩ =>
    show win0_8.index t (0 : Fin 1) * 1024 ≤ (i 0).val ∧ (i 0).val < win0_8.index t (0 : Fin 1) * 1024 + 1024
    have ht : t.val = (i 0).val / 1024 := rfl
    omega

/-- The kernel's flat result after the region. -/
theorem final (c : Dev nD) : (dats m 0 c).arrAt 8 cfg0.N = flatOf m c :=
  (dats m 0 c).arrAt_eq_of_cover 8 (flatOf m c) (fun t _ => flushed_eq m c t) (cover)

end Cert.KernelIdeal.Blocks

end
-- ==== Proof.KernelHost.lean ====
/-
  What the kernel's region finds in its eight input arrays.

  Before the region the program computes, from the sample map, the two weights and the four row and column words of
  every point, pads each of the six arrays from 16900 to 17408 points per face and lays it out flat; and it reshapes
  the image into 24 planes and splits them into a leading part and a remaining part. Each of the eight arrays is
  therefore one term of the two arguments as launched: the padded prelude arrays and the two image parts, as they are
  written once and for all away from the program.
-/
import proofs.«147664_j56410100465682_2_alg».proof.Proof.Gen.KernelIdeal.Frame
import proofs.«147664_j56410100465682_2_alg».proof.Proof.Terms
import Idealize.ShloMosaic.Lib.StableHlo.Run

set_option maxRecDepth 16384
set_option maxHeartbeats 2000000

noncomputable section

namespace Cert.KernelIdeal.HostValue

open Idealize.ShloMosaic Idealize.ShloMosaic.TcCoe Idealize.ShloMosaic.StableHlo
open Cert.KernelIdeal Cert.KernelIdeal.Gen Cert.Resample

variable (m : (ℓ : Loc nD τ sig) → Buf (Elt Ideal) ℓ) (c : Dev nD)

/-- Every buffer a host operation writes before the region holds that operation's value at the contents of its operands:
    the list of operations is run through, operation by operation, down to the two arguments as launched. -/
local macro "host_value" : tactic =>
  `(tactic| (dsimp only [Gen.V, Gen.V0]
             simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, List.flatten_cons, List.flatten_nil, List.append_nil, List.cons_append, List.nil_append]
             after_results_simp
             rfl))

/-- The image's leading part, as the region finds it. -/
theorem V_imgHi : (V m c main_v31 : Spl.Idx → EReal) = imgHi (m ((c : Thread nD τ).loc main_arg0)) := by
  host_value

/-- The image's remaining part, as the region finds it. -/
theorem V_imgLo : (V m c main_v34 : Spl.Idx → EReal) = imgLo (m ((c : Thread nD τ).loc main_arg0)) := by
  host_value

/-- The upper rows, padded and flat, as the region finds them. -/
theorem V_row0 : (V m c main_v19 : Sflat.Idx → BitVec 32) = padI (y0c (m ((c : Thread nD τ).loc main_arg1))) := by
  host_value

/-- The lower rows, padded and flat, as the region finds them. -/
theorem V_row1 : (V m c main_v21 : Sflat.Idx → BitVec 32) = padI (y1c (m ((c : Thread nD τ).loc main_arg1))) := by
  host_value

/-- The left columns, padded and flat, as the region finds them. -/
theorem V_col0 : (V m c main_v23 : Sflat.Idx → BitVec 32) = padI (x0w (m ((c : Thread nD τ).loc main_arg1))) := by
  host_value

/-- The right columns, padded and flat, as the region finds them. -/
theorem V_col1 : (V m c main_v25 : Sflat.Idx → BitVec 32) = padI (x1w (m ((c : Thread nD τ).loc main_arg1))) := by
  host_value

/-- The x weights, padded and flat, as the region finds them. -/
theorem V_wx : (V m c main_v27 : Sflat.Idx → EReal) = padF (wx (m ((c : Thread nD τ).loc main_arg1))) := by
  host_value

/-- The y weights, padded and flat, as the region finds them. -/
theorem V_wy : (V m c main_v29 : Sflat.Idx → EReal) = padF (wy (m ((c : Thread nD τ).loc main_arg1))) := by
  host_value

end Cert.KernelIdeal.HostValue

end
-- ==== Proof.TailRead.lean ====
/-
  The kernel program's result read at an output index.

  The kernel leaves a flat result: 24 planes × 80 faces × 17408 padded points, in row-major order. The program then
  lays it out on those three axes, cuts the 508 padding points of every face off, and lays the rest out on the result's
  five axes (8 × 3 planes, 80 faces, 130 × 130 points). Each layout change keeps the row-major position and the cut keeps
  the coordinates, so entry (b, c, f, p, q) of the result is the flat result at
  ((3 b + c) 80 + f) 17408 + (130 p + q). That flat position lies in plane 3 b + c (a plane holds 1392640 positions) at
  flat point 17408 f + (130 p + q).
-/
import proofs.«147664_j56410100465682_2_alg».proof.Proof.KernelSpec
import Idealize.ShloMosaic.Lib.Pipeline.Value

noncomputable section

namespace Cert.Resample

open Idealize.ShloMosaic Idealize.ShloMosaic.ValueIdx

/-- THE KERNEL PROGRAM'S RESULT READ AT (b, c, f, p, q): the flat result at plane 3 b + c, face f, point 130 p + q of
    the 17408 padded points of a face. The last layout change keeps the row-major position among planes × faces × 16900
    points; cutting the padding off keeps the coordinates; the first layout change keeps the row-major position among
    planes × faces × 17408 points. -/
theorem unflat_apply (a : FVec Ideal Sres .f32) (b : Fin 8) (c : Fin 3) (f : Fin 80) (p q : Fin 130) :
    unflat a (ix5 b c f p q)
      = a (ix1 ⟨((b.val * 3 + c.val) * 80 + f.val) * 17408 + (p.val * 130 + q.val), by omega⟩) := by
  have hbc : b.val * 3 + c.val < 24 := by omega
  have hk : p.val * 130 + q.val < 16900 := by omega
  have hk' : p.val * 130 + q.val < 17408 := by omega
  unfold unflat
  refine (shapeCast_apply _ castKeep (ix5 b c f p q)
    (ix3 (⟨b.val * 3 + c.val, hbc⟩ : Fin 24) f (⟨p.val * 130 + q.val, hk⟩ : Fin 16900)) ?_).trans ?_
  · rw [Shape.rowMajor_val_three, Shape.rowMajor_val_five]
    show ((b.val * 3 + c.val) * 80 + f.val) * 16900 + (p.val * 130 + q.val)
      = (((b.val * 3 + c.val) * 80 + f.val) * 130 + p.val) * 130 + q.val
    omega
  refine (extractStridedSlice_apply _ _ sliceKeep _
    (ix3 (⟨b.val * 3 + c.val, hbc⟩ : Fin 24) f (⟨p.val * 130 + q.val, hk'⟩ : Fin 17408)) ?_).trans ?_
  · intro d
    match d with
    | ⟨0, _⟩ => exact (Nat.zero_add _).symm
    | ⟨1, _⟩ => exact (Nat.zero_add _).symm
    | ⟨2, _⟩ => exact (Nat.zero_add _).symm
  refine shapeCast_apply a castRes3 _ _ ?_
  rw [Shape.rowMajor_val_one, Shape.rowMajor_val_three]
  rfl

/-- The plane of that flat position is 3 b + c: a plane holds 80 × 17408 = 1392640 positions. -/
theorem planeOf_flat (b : Fin 8) (c : Fin 3) (f : Fin 80) (p q : Fin 130) :
    planeOf (ix1 ⟨((b.val * 3 + c.val) * 80 + f.val) * 17408 + (p.val * 130 + q.val), by omega⟩)
      = ⟨b.val * 3 + c.val, by omega⟩ := by
  refine Fin.ext ?_
  show (((b.val * 3 + c.val) * 80 + f.val) * 17408 + (p.val * 130 + q.val)) / 1392640 = b.val * 3 + c.val
  omega

/-- The flat point of that flat position is point 130 p + q of face f. -/
theorem pointOf_flat (b : Fin 8) (c : Fin 3) (f : Fin 80) (p q : Fin 130) :
    pointOf (ix1 ⟨((b.val * 3 + c.val) * 80 + f.val) * 17408 + (p.val * 130 + q.val), by omega⟩)
      = ix1 ⟨f.val * 17408 + (p.val * 130 + q.val), by omega⟩ := by
  funext d
  match d with
  | ⟨0, _⟩ =>
    refine Fin.ext ?_
    show (((b.val * 3 + c.val) * 80 + f.val) * 17408 + (p.val * 130 + q.val)) % 1392640
      = f.val * 17408 + (p.val * 130 + q.val)
    omega

end Cert.Resample

end
-- ==== Proof.SpecFacts.lean ====
/-
  Ranges of the row and column words of the resampling.

  A clamped word lies between its two bounds whatever the word clamped, and the floored remainder of a signed word by
  1024 lies in [0, 1024): the truncated remainder r has |r| < 1024, and 1024 is added exactly when r is negative.
  So every row word read as a natural number is below 512 and every column word below 1024.
-/
import proofs.«147664_j56410100465682_2_alg».proof.Proof.Spec

noncomputable section

namespace Cert.Resample

open Idealize.ShloMosaic Idealize.ShloMosaic.ValueIdx

/-! ## Words -/

/-- A signed word clamped between 0 and 511, read as a natural number, is below 512. -/
theorem clamp_word_lt (a : BitVec 32) : (IntOp.minsi 511#32 (IntOp.maxsi 0#32 a)).toNat < 512 := by
  unfold IntOp.minsi IntOp.maxsi
  by_cases h1 : a.slt 0#32 = true
  · rw [if_pos h1]; decide
  · rw [if_neg h1]
    by_cases h2 : (511#32 : BitVec 32).slt a = true
    · rw [if_pos h2]; decide
    · rw [if_neg h2]
      rw [BitVec.slt_iff_toInt_lt] at h1 h2
      have e0 : (0#32 : BitVec 32).toInt = 0 := by decide
      have e1 : (511#32 : BitVec 32).toInt = 511 := by decide
      rw [e0] at h1
      rw [e1] at h2
      have ha := a.isLt
      rw [BitVec.toInt_eq_toNat_cond] at h1 h2
      split at h1 <;> omega

/-- A comparison's bit is 1 exactly when the comparison holds. -/
theorem ofBool_one (b : Bool) : BitVec.ofBool b = 1#1 ↔ b = true := by cases b <;> decide

/-- The floored remainder of a signed word by 1024, as the select / compare / add chain spells it. -/
def wrapWord (a : BitVec 32) : BitVec 32 :=
  Scalar.select
    (IntOp.andi
      (IntOp.cmpi .ne (IntOp.cmpi .slt (IntOp.remsi .host a 1024#32) 0#32) (IntOp.cmpi .slt (1024#32 : BitVec 32) 0#32))
      (IntOp.cmpi .ne (IntOp.remsi .host a 1024#32) 0#32))
    (IntOp.addi (IntOp.remsi .host a 1024#32) 1024#32)
    (IntOp.remsi .host a 1024#32)

/-- 1024 is not a corner of the signed division: the remainder is the truncated one. -/
theorem remsi_1024 (a : BitVec 32) : IntOp.remsi .host a 1024#32 = a.srem 1024#32 := by
  unfold IntOp.remsi
  rw [if_neg]
  rintro (h | ⟨-, h⟩) <;> revert h <;> decide

/-- The truncated remainder by 1024 lies strictly between -1024 and 1024. -/
theorem srem_1024_bounds (a : BitVec 32) : -1024 < (a.srem 1024#32).toInt ∧ (a.srem 1024#32).toInt < 1024 := by
  rw [BitVec.toInt_srem]
  have e : (1024#32 : BitVec 32).toInt = 1024 := by decide
  rw [e]
  exact ⟨Int.lt_tmod_of_pos _ (by omega), Int.tmod_lt_of_pos _ (by omega)⟩

/-- The floored remainder of a signed word by 1024, read as a natural number, is below 1024. -/
theorem wrap_word_lt (a : BitVec 32) : (wrapWord a).toNat < 1024 := by
  unfold wrapWord
  rw [remsi_1024]
  obtain ⟨hlo, hhi⟩ := srem_1024_bounds a
  generalize a.srem 1024#32 = r at hlo hhi
  have hr := r.isLt
  have e0 : (0#32 : BitVec 32).toInt = 0 := by decide
  have ec : IntOp.cmpi .slt (1024#32 : BitVec 32) 0#32 = 0#1 := by decide
  rw [ec]
  by_cases hneg : r.toInt < 0
  · -- the remainder is negative: 1024 is added
    have h1 : IntOp.cmpi .slt r 0#32 = 1#1 := by
      simp only [IntOp.cmpi, ofBool_one, BitVec.slt_iff_toInt_lt, e0]; exact hneg
    have h2 : IntOp.cmpi .ne r 0#32 = 1#1 := by
      simp only [IntOp.cmpi, ofBool_one, bne_iff_ne, ne_eq]
      intro h; rw [h, e0] at hneg; omega
    rw [h1, h2]
    have hc : IntOp.andi (IntOp.cmpi .ne (1#1 : BitVec 1) 0#1) 1#1 = 1#1 := by decide
    rw [hc]
    unfold Scalar.select IntOp.addi
    rw [if_pos (show (1#1 : BitVec 1) = 1 from rfl), BitVec.toNat_add]
    have e : (1024#32 : BitVec 32).toNat = 1024 := by decide
    rw [e]
    rw [BitVec.toInt_eq_toNat_cond] at hneg hlo
    split at hneg <;> omega
  · -- the remainder is not negative: it is the result
    have h1 : IntOp.cmpi .slt r 0#32 = 0#1 := by
      have : ¬ IntOp.cmpi .slt r 0#32 = 1#1 := by
        simp only [IntOp.cmpi, ofBool_one, BitVec.slt_iff_toInt_lt, e0]; exact hneg
      revert this; generalize IntOp.cmpi .slt r 0#32 = c; revert c; decide
    rw [h1]
    have hc : ∀ c : BitVec 1, IntOp.andi (IntOp.cmpi .ne (0#1 : BitVec 1) 0#1) c = 0#1 := by decide
    rw [hc]
    unfold Scalar.select
    rw [if_neg (by decide)]
    rw [BitVec.toInt_eq_toNat_cond] at hneg hhi
    split at hneg <;> omega

/-! ## Arrays -/

/-- Clamping between 0 and 511, read at a point. -/
theorem clamp_apply (v : IVec Spts 32) (k : Spts.Idx) :
    clamp v (constantI Ssc 32 0#32) (constantI Ssc 32 511#32) k = IntOp.minsi 511#32 (IntOp.maxsi 0#32 (v k)) := rfl

/-- The divisor 1024 is kept. -/
theorem divisor_1024 (j : Ssc.Idx) : divisor (constantI Ssc 32 1024#32) j = 1024#32 := by
  show Scalar.select (IntOp.cmpi .eq (1024#32 : BitVec 32) 0#32) 1#32 1024#32 = 1024#32
  decide

/-- Wrapping by 1024, read at a point. -/
theorem wrap_apply (v : IVec Spts 32) (k : Spts.Idx) : wrap v (constantI Ssc 32 1024#32) k = wrapWord (v k) := by
  unfold wrap wrapWord
  simp only [select, andi, cmpi, addi, Host.remsi, broadcastInDim, divisor_1024, constantI]

theorem clamp_lt (v : IVec Spts 32) (k : Spts.Idx) :
    (clamp v (constantI Ssc 32 0#32) (constantI Ssc 32 511#32) k).toNat < 512 := by
  rw [clamp_apply]; exact clamp_word_lt _

theorem wrap_lt (v : IVec Spts 32) (k : Spts.Idx) : (wrap v (constantI Ssc 32 1024#32) k).toNat < 1024 := by
  rw [wrap_apply]; exact wrap_word_lt _

/-! ## The four words of a point -/

theorem y0c_lt (sm : FVec Ideal Smap .f32) (k : Spts.Idx) : (y0c sm k).toNat < 512 := clamp_lt _ k
theorem y1c_lt (sm : FVec Ideal Smap .f32) (k : Spts.Idx) : (y1c sm k).toNat < 512 := clamp_lt _ k
theorem x0w_lt (sm : FVec Ideal Smap .f32) (k : Spts.Idx) : (x0w sm k).toNat < 1024 := wrap_lt _ k
theorem x1w_lt (sm : FVec Ideal Smap .f32) (k : Spts.Idx) : (x1w sm k).toNat < 1024 := wrap_lt _ k

end Cert.Resample

end
-- ==== Proof.FlatRead.lean ====
/-
  The kernel's operands read at an index.

  A padded, flattened array at position 17408 f + k is the unpadded array at (f, k) when k is below 16900 and the
  padding value otherwise; the image's 24 planes at plane 3 b + c are the image at (b, c); the image's remaining part
  is a difference of an entry with itself.
-/
import proofs.«147664_j56410100465682_2_alg».proof.Proof.Terms
import Idealize.ShloMosaic.Lib.Pipeline.Value

noncomputable section

namespace Cert.Resample

open Idealize.ShloMosaic Idealize.ShloMosaic.ValueIdx

/-- The padded array at (f, k), k below 16900: the operand there. -/
theorem pad_apply_lt {α : Type} (v : Spts.Idx → α) (z : Ssc.Idx → α) (f : Fin 80) (k : Fin 17408) (h : k.val < 16900) :
    pad Spad ![0, 0] ![0, 508] ![0, 0] v z pads hsc (ix2 f k) = v (ix2 f ⟨k.val, h⟩) := by
  unfold pad
  rw [dif_pos]
  · congr 1
    funext a
    match a with
    | ⟨0, _⟩ => exact Fin.ext (by simp)
    | ⟨1, _⟩ => exact Fin.ext (by simp)
  · intro a
    match a with
    | ⟨0, _⟩ => exact ⟨Nat.zero_le _, Nat.mod_one _, by simpa using f.isLt⟩
    | ⟨1, _⟩ => exact ⟨Nat.zero_le _, Nat.mod_one _, by simpa using h⟩

/-- The padded array at (f, k), k from 16900 on: the padding value. -/
theorem pad_apply_ge {α : Type} (v : Spts.Idx → α) (z : Ssc.Idx → α) (f : Fin 80) (k : Fin 17408) (h : ¬ k.val < 16900) :
    pad Spad ![0, 0] ![0, 508] ![0, 0] v z pads hsc (ix2 f k) = z ix0 := by
  unfold pad
  rw [dif_neg]
  · exact congrArg z (eq_ix0 _)
  · intro hin
    have := (hin ⟨1, by decide⟩).2.2
    exact h (by simpa using this)

/-- The flat position 17408 f + k is position (f, k) of the padded array. -/
theorem flat_apply {α : Type} (u : Spad.Idx → α) (f : Fin 80) (k : Fin 17408) :
    shapeCast Sflat u castFlat (ix1 ⟨f.val * 17408 + k.val, by omega⟩) = u (ix2 f k) := by
  refine shapeCast_apply u castFlat _ (ix2 f k) ?_
  rw [Shape.rowMajor_val_two, Shape.rowMajor_val_one]
  rfl

theorem padI_apply (v : IVec Spts 32) (f : Fin 80) (k : Fin 17408) :
    padI v (ix1 ⟨f.val * 17408 + k.val, by omega⟩) = if h : k.val < 16900 then v (ix2 f ⟨k.val, h⟩) else 0#32 := by
  unfold padI
  rw [flat_apply]
  split
  · next h => exact pad_apply_lt _ _ f k h
  · next h => exact pad_apply_ge _ _ f k h

theorem padF_apply (w : FVec Ideal Spts .f32) (f : Fin 80) (k : Fin 17408) :
    padF w (ix1 ⟨f.val * 17408 + k.val, by omega⟩) = if h : k.val < 16900 then w (ix2 f ⟨k.val, h⟩) else 0 := by
  unfold padF
  rw [flat_apply]
  split
  · next h => exact pad_apply_lt _ _ f k h
  · next h =>
    rw [pad_apply_ge _ _ f k h]
    show (((0#32 : BitVec 32).toInt : ℝ) : EReal) = 0
    simp

/-- Plane 3 b + c of the 24 planes is plane (b, c) of the image. -/
theorem planes_apply (x : FVec Ideal Simg .f32) (b : Fin 8) (c : Fin 3) (r : Fin 512) (w : Fin 1024) :
    planes x (ix3 ⟨b.val * 3 + c.val, by omega⟩ r w) = x (ix4 b c r w) := by
  unfold planes
  refine shapeCast_apply x castPl _ (ix4 b c r w) ?_
  rw [Shape.rowMajor_val_four, Shape.rowMajor_val_three]
  rfl

theorem imgHi_apply (x : FVec Ideal Simg .f32) (b : Fin 8) (c : Fin 3) (r : Fin 512) (w : Fin 1024) :
    imgHi x (ix3 ⟨b.val * 3 + c.val, by omega⟩ r w) = x (ix4 b c r w) := by
  unfold imgHi
  rw [truncf_apply, planes_apply]

theorem imgLo_apply (x : FVec Ideal Simg .f32) (b : Fin 8) (c : Fin 3) (r : Fin 512) (w : Fin 1024) :
    imgLo x (ix3 ⟨b.val * 3 + c.val, by omega⟩ r w) = x (ix4 b c r w) - x (ix4 b c r w) := by
  unfold imgLo
  rw [truncf_apply, subf_apply, extf_apply, truncf_apply, planes_apply]

end Cert.Resample

end
-- ==== Proof.Collapse.lean ====
/-
  A pick out of the image's two parts is the image's entry.

  The row selector of a word is one at the word's position and zero elsewhere, so a sum of selector entries times values
  is the value at that position. The second plane, the difference of a real entry with itself, is zero. Hence a row
  word below 512 and a column word below 1024 pick, out of plane (b, c) and that zero plane, the image entry at that
  row and column.
-/
import proofs.«147664_j56410100465682_2_alg».proof.Proof.KernelSpec

noncomputable section

namespace Cert.Resample

open Idealize.ShloMosaic Idealize.ShloMosaic.ValueIdx
open scoped BigOperators

/-! ## A selector picks one term of a sum -/

/-- The selector of a word is one at the word's own position. -/
private theorem hot_self (word : BitVec 32) : hot word word.toNat = 1 := by
  rw [hot_eq, if_pos]
  apply BitVec.eq_of_toNat_eq
  rw [BitVec.toNat_ofNat, Nat.mod_eq_of_lt word.isLt]

/-- The selector of a word is zero at every other position below 2 ^ 32. -/
private theorem hot_ne (word : BitVec 32) (k : ℕ) (hk : k < 2 ^ 32) (h : k ≠ word.toNat) : hot word k = 0 := by
  rw [hot_eq, if_neg]
  intro e
  apply h
  rw [← e, BitVec.toNat_ofNat, Nat.mod_eq_of_lt hk]

/-- A sum of selector entries times values is the value at the word's position. -/
private theorem sum_hot_mul {n : ℕ} (hn : n ≤ 2 ^ 32) (word : BitVec 32) (hw : word.toNat < n) (f : Fin n → EReal) :
    ∑ k : Fin n, hot word k.val * f k = f ⟨word.toNat, hw⟩ := by
  rw [Finset.sum_eq_single (⟨word.toNat, hw⟩ : Fin n)]
  · rw [hot_self, one_mul]
  · intro k _ hk
    have hkl : k.val < 2 ^ 32 := lt_of_lt_of_le k.isLt hn
    rw [hot_ne word k.val hkl (fun e => hk (Fin.ext e)), zero_mul]
  · intro h
    exact absurd (Finset.mem_univ _) h

/-- The same with the selector on the right. -/
private theorem sum_mul_hot {n : ℕ} (hn : n ≤ 2 ^ 32) (word : BitVec 32) (hw : word.toNat < n) (f : Fin n → EReal) :
    ∑ k : Fin n, f k * hot word k.val = f ⟨word.toNat, hw⟩ := by
  rw [← sum_hot_mul hn word hw f]
  exact Finset.sum_congr rfl fun k _ => mul_comm _ _

/-! ## The pick is the corner -/

/-- With the first plane the image's plane (b, c) and the second plane zero (the difference of a real entry with
    itself), a row word below 512 and a column word below 1024 pick the image entry at that row and column. -/
theorem pick_collapse (x : FVec Ideal Simg .f32) (hx : ∀ i : Simg.Idx, ∃ r : ℝ, x i = (r : EReal)) (b : Fin 8) (c : Fin 3)
    (hi lo : Fin 512 → Fin 1024 → EReal) (hHi : ∀ k w, hi k w = x (ix4 b c k w))
    (hLo : ∀ k w, lo k w = x (ix4 b c k w) - x (ix4 b c k w)) (yw xw : BitVec 32) (hy : yw.toNat < 512)
    (hxw : xw.toNat < 1024) : pickG hi lo yw xw = corner x b c yw xw := by
  unfold pickG corner
  -- the second plane is zero: a real minus itself
  have hlo0 : ∀ k w, lo k w = 0 := by
    intro k w
    rw [hLo]
    obtain ⟨r, hr⟩ := hx (ix4 b c k w)
    rw [hr, ← EReal.coe_sub, sub_self, EReal.coe_zero]
  -- the row selector picks row yw of the first plane
  have e1 : ∀ w : Fin 1024,
      (∑ k : Fin 512, hot yw k.val * hi k w) + (∑ k : Fin 512, hot yw k.val * lo k w) = hi ⟨yw.toNat, hy⟩ w := by
    intro w
    rw [sum_hot_mul (by norm_num) yw hy (fun k => hi k w), sum_hot_mul (by norm_num) yw hy (fun k => lo k w), hlo0, add_zero]
  rw [Finset.sum_congr rfl fun w _ => congrArg (· * hot xw w.val) (e1 w)]
  -- the column selector picks column xw of that row
  rw [sum_mul_hot (by norm_num) xw hxw (fun w => hi ⟨yw.toNat, hy⟩ w), hHi]
  simp only [Nat.mod_eq_of_lt hy, Nat.mod_eq_of_lt hxw]

end Cert.Resample

end
-- ==== Proof.KernelValue.lean ====
/-
  The kernel's value: the kernel's flat result, laid out as the program lays it out, is the resampling.

  At an output index (b, c, f, p, q) the program reads the flat result at plane 3 b + c and flat point
  17408 f + (130 p + q). There the flat result is the blend, by the two weights at that flat point, of four entries
  picked out of plane 3 b + c of the image's two parts by the row and column words at that flat point. The flat point
  is not padding, so the padded words and weights are the prelude's own at point 130 p + q of face f; the two parts of
  the image add up to the image, so a pick by a row word below 512 and a column word below 1024 is the image's entry at
  that row and column. These are the specification's four corners and two weights.
-/
import proofs.«147664_j56410100465682_2_alg».proof.Proof.TailRead
import proofs.«147664_j56410100465682_2_alg».proof.Proof.SpecFacts
import proofs.«147664_j56410100465682_2_alg».proof.Proof.FlatRead
import proofs.«147664_j56410100465682_2_alg».proof.Proof.Collapse

noncomputable section

namespace Cert.Resample

open Idealize.ShloMosaic Idealize.ShloMosaic.ValueIdx

/-- The kernel's flat result, laid out as the program lays it out, is the resampling — given how the padded operands and
    the image's two parts read at an index, that a pick out of those two parts is the image's corner, and that the
    clamped rows are below 512 and the wrapped columns below 1024. At (b, c, f, p, q) the program reads the flat result
    at plane 3 b + c and flat point 17408 f + (130 p + q); that point is not padding, so the six padded operands read
    the prelude's arrays at point 130 p + q of face f; and the four picks are the four corners. -/
theorem unflat_KF_of (x : FVec Ideal Simg .f32) (sm : FVec Ideal Smap .f32)
    (hPadI : ∀ (v : IVec Spts 32) (f : Fin 80) (k : Fin 17408),
      padI v (ix1 ⟨f.val * 17408 + k.val, by omega⟩) = if h : k.val < 16900 then v (ix2 f ⟨k.val, h⟩) else 0#32)
    (hPadF : ∀ (w : FVec Ideal Spts .f32) (f : Fin 80) (k : Fin 17408),
      padF w (ix1 ⟨f.val * 17408 + k.val, by omega⟩) = if h : k.val < 16900 then w (ix2 f ⟨k.val, h⟩) else 0)
    (hHi : ∀ (b : Fin 8) (c : Fin 3) (r : Fin 512) (w : Fin 1024),
      imgHi x (ix3 (⟨b.val * 3 + c.val, by omega⟩ : Fin 24) r w) = x (ix4 b c r w))
    (hLo : ∀ (b : Fin 8) (c : Fin 3) (r : Fin 512) (w : Fin 1024),
      imgLo x (ix3 (⟨b.val * 3 + c.val, by omega⟩ : Fin 24) r w) = x (ix4 b c r w) - x (ix4 b c r w))
    (hPick : ∀ (b : Fin 8) (c : Fin 3) (hi lo : Fin 512 → Fin 1024 → EReal),
      (∀ k w, hi k w = x (ix4 b c k w)) → (∀ k w, lo k w = x (ix4 b c k w) - x (ix4 b c k w)) →
      ∀ (yw xw : BitVec 32), yw.toNat < 512 → xw.toNat < 1024 → pickG hi lo yw xw = corner x b c yw xw)
    (hy0 : ∀ k, (y0c sm k).toNat < 512) (hy1 : ∀ k, (y1c sm k).toNat < 512)
    (hx0 : ∀ k, (x0w sm k).toNat < 1024) (hx1 : ∀ k, (x1w sm k).toNat < 1024) :
    unflat (KF (imgHi x) (imgLo x) (padI (y0c sm)) (padI (y1c sm)) (padI (x0w sm)) (padI (x1w sm))
      (padF (wx sm)) (padF (wy sm))) = G x sm := by
  funext i
  obtain ⟨b, c, f, p, q, rfl⟩ : ∃ (b : Fin 8) (c : Fin 3) (f : Fin 80) (p q : Fin 130), i = ix5 b c f p q :=
    ⟨i 0, i 1, i 2, i 3, i 4, eq_ix5 i⟩
  have hk : p.val * 130 + q.val < 16900 := by omega
  have hk' : p.val * 130 + q.val < 17408 := by omega
  -- the padded operands at a point that is not padding
  have rI : ∀ v : IVec Spts 32, padI v (ix1 ⟨f.val * 17408 + (p.val * 130 + q.val), by omega⟩)
      = v (ix2 f ⟨p.val * 130 + q.val, hk⟩) := fun v => (hPadI v f ⟨p.val * 130 + q.val, hk'⟩).trans (dif_pos hk)
  have rF : ∀ w : FVec Ideal Spts .f32, padF w (ix1 ⟨f.val * 17408 + (p.val * 130 + q.val), by omega⟩)
      = w (ix2 f ⟨p.val * 130 + q.val, hk⟩) := fun w => (hPadF w f ⟨p.val * 130 + q.val, hk'⟩).trans (dif_pos hk)
  -- a pick out of plane 3 b + c of the image's two parts is the image's corner
  have rP : ∀ yw xw : BitVec 32, yw.toNat < 512 → xw.toNat < 1024 →
      pickG (fun k w => imgHi x (ix3 (⟨b.val * 3 + c.val, by omega⟩ : Fin 24) k w))
        (fun k w => imgLo x (ix3 (⟨b.val * 3 + c.val, by omega⟩ : Fin 24) k w)) yw xw = corner x b c yw xw :=
    fun yw xw h1 h2 => hPick b c _ _ (fun k w => hHi b c k w) (fun k w => hLo b c k w) yw xw h1 h2
  rw [unflat_apply]
  unfold KF
  simp only [planeOf_flat, pointOf_flat, rI, rF]
  rw [rP _ _ (hy0 _) (hx0 _), rP _ _ (hy0 _) (hx1 _), rP _ _ (hy1 _) (hx0 _), rP _ _ (hy1 _) (hx1 _)]
  rfl

/-- THE KERNEL'S VALUE: for an image of real entries, the kernel's flat result over the padded prelude and the image's
    two parts, laid out as the program lays it out, is the resampling. -/
theorem unflat_KF (x : FVec Ideal Simg .f32) (sm : FVec Ideal Smap .f32)
    (hx : ∀ i : Simg.Idx, ∃ r : ℝ, x i = (r : EReal)) :
    unflat (KF (imgHi x) (imgLo x) (padI (y0c sm)) (padI (y1c sm)) (padI (x0w sm)) (padI (x1w sm))
      (padF (wx sm)) (padF (wy sm))) = G x sm :=
  unflat_KF_of x sm padI_apply padF_apply (imgHi_apply x) (imgLo_apply x)
    (fun b c hi lo hHi hLo yw xw hy hxw => pick_collapse x hx b c hi lo hHi hLo yw xw hy hxw)
    (y0c_lt sm) (y1c_lt sm) (x0w_lt sm) (x1w_lt sm)

end Cert.Resample

end
-- ==== Proof.KernelRun.lean ====
/-
  The kernel program's run, read as a value.

  The region leaves the kernel's flat result (one function of the eight operand arrays); the three operations after it
  lay that out as planes × faces × padded points, cut the padding off, and lay the rest out on the result's five axes.
  The eight operand arrays are terms of the two arguments, so the program's result is one term of the arguments; with
  a finite image that term is the resampled array.
-/
import proofs.«147664_j56410100465682_2_alg».proof.Proof.Blocks
import proofs.«147664_j56410100465682_2_alg».proof.Proof.KernelHost
import proofs.«147664_j56410100465682_2_alg».proof.Proof.KernelValue
import Idealize.ShloMosaic.Lib.StableHlo.Run

set_option maxRecDepth 16384

noncomputable section

namespace Cert.KernelIdeal.KRun

open Idealize.ShloMosaic Idealize.ShloMosaic.TcCoe Idealize.ShloMosaic.StableHlo Idealize.SL.Sem
open Cert.KernelIdeal Cert.KernelIdeal.Gen Cert.Resample

variable (m : (ℓ : Loc nD τ sig) → Buf (Elt Ideal) ℓ) (ρ : Dev nD → PrngReg)

/-- The flat result as a term of the two arguments. -/
theorem flatOf_eq (c : Dev nD) :
    Blocks.flatOf m c
      = KF (imgHi (m ((c : Thread nD τ).loc main_arg0))) (imgLo (m ((c : Thread nD τ).loc main_arg0)))
          (padI (y0c (m ((c : Thread nD τ).loc main_arg1)))) (padI (y1c (m ((c : Thread nD τ).loc main_arg1))))
          (padI (x0w (m ((c : Thread nD τ).loc main_arg1)))) (padI (x1w (m ((c : Thread nD τ).loc main_arg1))))
          (padF (wx (m ((c : Thread nD τ).loc main_arg1)))) (padF (wy (m ((c : Thread nD τ).loc main_arg1)))) := by
  unfold Blocks.flatOf
  rw [HostValue.V_imgHi, HostValue.V_imgLo, HostValue.V_row0, HostValue.V_row1, HostValue.V_col0, HostValue.V_col1,
    HostValue.V_wx, HostValue.V_wy]

/-- What the operations after the region leave in the result buffer. -/
theorem tail_eq (c : Dev nD) :
    Pipeline.afterTail₀ cfgs (dats m) 0 (V0 m) [hostOps1] c main_v38 = unflat (Blocks.flatOf m c) := by
  unfold Pipeline.afterTail₀
  show StableHlo.after hostOps1 _ (Proc.devRef .tc main_v38) = _
  after_results
  rw [(Pipeline.withArrays_arr spec0 launch0.win.arr_inj c _ _ 8).trans (Blocks.final m c)]
  rfl

/-- The run: the result buffer ends at the resampled array of the arguments, which end unchanged. -/
theorem run (hfin : ∀ c : Dev nD, ∀ i : Simg.Idx, ∃ r : ℝ, (m ((c : Thread nD τ).loc main_arg0) : Simg.Idx → EReal) i = (r : EReal)) :
    θ_run (defs (F := Ideal)) (onTc (τ := τ) (main (F := Ideal))) ⟨m, fun _ => 0, ρ⟩ (fun r => ∀ c : Dev nD,
      r.2.mem ((c.tc : Thread nD τ).loc main_v38) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v38 (Pipeline.mem_restRefs_of main_v38 (by decide) (by decide))).trans
        ((tail_eq m c).trans ((congrArg unflat (flatOf_eq m c)).trans (unflat_KF _ _ (hfin c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KRun

end
-- ==== Proof.RefRun.lean ====
/-
  The reference program's run. Its @main is a straight line of host operations, some of them inside the functions
  it calls (the floored remainder, with its choice of divisor inside, and the clamp, each called twice); with the
  calls unfolded it is a list of 188 operations in three stretches, one per window of the printed @main. The list
  is a transcription of the program: each entry is one line of it, the callee's lines over the call's own buffers.
  From the list the run follows by the general statement about straight lines, and what the result buffer holds
  at the end is the fold of the operations' functions, read off one operation at a time.
-/
import proofs.«147664_j56410100465682_2_alg».proof.Proof.Gen.ReferenceIdeal
import proofs.«147664_j56410100465682_2_alg».proof.Proof.Terms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 to 60 of @main, the four calls unfolded: the coordinates, their floors and fractions, the two
    wrapped columns, the two clamped rows, the first gather and the start indices of the second up to their pairing. -/
abbrev ops0 : List (HloOp τ sig (Elt F)) :=
  [ StableHlo.unary main_arg1 main_v0 ((extractStridedSlice S80x16900x1 ![0, 0, 0] · slices_S80x16900x2_S80x16900x1_0_0_0) : (⟨S80x16900x2, .f32⟩ : BufTy).Contents (Elt F) → (⟨S80x16900x1, .f32⟩ : BufTy).Contents (Elt F)),
    StableHlo.reshape main_v0 main_v1 rfl shapeCasts_S80x16900x1_S80x16900,
    StableHlo.unary main_arg1 main_v2 ((extractStridedSlice S80x16900x1 ![0, 0, 1] · slices_S80x16900x2_S80x16900x1_0_0_1) : (⟨S80x16900x2, .f32⟩ : BufTy).Contents (Elt F) → (⟨S80x16900x1, .f32⟩ : BufTy).Contents (Elt F)),
    StableHlo.reshape main_v2 main_v3 rfl shapeCasts_S80x16900x1_S80x16900,
    StableHlo.unary main_v1 main_v4 (Host.floor : (⟨S80x16900, .f32⟩ : BufTy).Contents (Elt F) → (⟨S80x16900, .f32⟩ : BufTy).Contents (Elt F)),
    StableHlo.unary main_v3 main_v5 (Host.floor : (⟨S80x16900, .f32⟩ : BufTy).Contents (Elt F) → (⟨S80x16900, .f32⟩ : BufTy).Contents (Elt F)),
    StableHlo.binary main_v1 main_v4 main_v6 (subf : (⟨S80x16900, .f32⟩ : BufTy).Contents (Elt F) → (⟨S80x16900, .f32⟩ : BufTy).Contents (Elt F) → (⟨S80x16900, .f32⟩ : BufTy).Contents (Elt F)),
    StableHlo.binary main_v3 main_v5 main_v7 (subf : (⟨S80x16900, .f32⟩ : BufTy).Contents (Elt F) → (⟨S80x16900, .f32⟩ : BufTy).Contents (Elt F) → (⟨S80x16900, .f32⟩ : BufTy).Contents (Elt F)),
    StableHlo.unary main_v4 main_v8 (fptosi 32 : (⟨S80x16900, .f32⟩ : BufTy).Contents (Elt F) → (⟨S80x16900, .i32⟩ : BufTy).Contents (Elt F)),
    StableHlo.unary main_v5 main_v9 (fptosi 32 : (⟨S80x16900, .f32⟩ : BufTy).Contents (Elt F) → (⟨S80x16900, .i32⟩ : BufTy).Contents (Elt F)),
    StableHlo.nullary main_c (constantI S_ 32 1024#32),
    StableHlo.TRef.unary (TRef.of main_c : TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S80x16900 ![] bcast_S_S80x16900),
    StableHlo.TRef.binary (TRef.of main_v8 : TRef sig ⟨S80x16900, .i32⟩) main_call0.v3 main_call0.v4 Host.remsi,
    StableHlo.TRef.nullary main_call0.c_1 (constantI S_ 32 0#32),
    StableHlo.TRef.unary main_call0.c_1 main_call0.v5 (broadcastInDim S80x16900 ![] bcast_S_S80x16900),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S80x16900 ![] bcast_S_S80x16900),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S80x16900 ![] bcast_S_S80x16900),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S80x16900 ![] bcast_S_S80x16900),
    StableHlo.TRef.binary main_call0.v4 main_call0.v13 main_call0.v14 addi,
    StableHlo.TRef.ternary main_call0.v12 main_call0.v14 main_call0.v4 main_call0.v15 select,
    StableHlo.nullary main_c_0 (constantI S_ 32 1#32),
    StableHlo.unary main_c_0 main_v11 (broadcastInDim S80x16900 ![] bcast_S_S80x16900 : (⟨S_, .i32⟩ : BufTy).Contents (Elt F) → (⟨S80x16900, .i32⟩ : BufTy).Contents (Elt F)),
    StableHlo.binary main_v8 main_v11 main_v12 (addi : (⟨S80x16900, .i32⟩ : BufTy).Contents (Elt F) → (⟨S80x16900, .i32⟩ : BufTy).Contents (Elt F) → (⟨S80x16900, .i32⟩ : BufTy).Contents (Elt F)),
    StableHlo.nullary main_c_1 (constantI S_ 32 1024#32),
    StableHlo.TRef.unary (TRef.of main_c_1 : TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S80x16900 ![] bcast_S_S80x16900),
    StableHlo.TRef.binary (TRef.of main_v12 : TRef sig ⟨S80x16900, .i32⟩) main_call1.v3 main_call1.v4 Host.remsi,
    StableHlo.TRef.nullary main_call1.c_1 (constantI S_ 32 0#32),
    StableHlo.TRef.unary main_call1.c_1 main_call1.v5 (broadcastInDim S80x16900 ![] bcast_S_S80x16900),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S80x16900 ![] bcast_S_S80x16900),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S80x16900 ![] bcast_S_S80x16900),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S80x16900 ![] bcast_S_S80x16900),
    StableHlo.TRef.binary main_call1.v4 main_call1.v13 main_call1.v14 addi,
    StableHlo.TRef.ternary main_call1.v12 main_call1.v14 main_call1.v4 main_call1.v15 select,
    StableHlo.nullary main_c_2 (constantI S_ 32 0#32),
    StableHlo.nullary main_c_3 (constantI S_ 32 511#32),
    StableHlo.TRef.unary (TRef.of main_c_2 : TRef sig ⟨S_, .i32⟩) main_call2.v0 id,
    StableHlo.TRef.unary main_call2.v0 main_call2.v1 (broadcastInDim S80x16900 ![] bcast_S_S80x16900),
    StableHlo.TRef.binary main_call2.v1 (TRef.of main_v9 : TRef sig ⟨S80x16900, .i32⟩) main_call2.v2 maxsi,
    StableHlo.TRef.unary (TRef.of main_c_3 : TRef sig ⟨S_, .i32⟩) main_call2.v3 id,
    StableHlo.TRef.unary main_call2.v3 main_call2.v4 (broadcastInDim S80x16900 ![] bcast_S_S80x16900),
    StableHlo.TRef.binary main_call2.v4 main_call2.v2 main_call2.v5 minsi,
    StableHlo.nullary main_c_4 (constantI S_ 32 1#32),
    StableHlo.unary main_c_4 main_v15 (broadcastInDim S80x16900 ![] bcast_S_S80x16900 : (⟨S_, .i32⟩ : BufTy).Contents (Elt F) → (⟨S80x16900, .i32⟩ : BufTy).Contents (Elt F)),
    StableHlo.binary main_v9 main_v15 main_v16 (addi : (⟨S80x16900, .i32⟩ : BufTy).Contents (Elt F) → (⟨S80x16900, .i32⟩ : BufTy).Contents (Elt F) → (⟨S80x16900, .i32⟩ : BufTy).Contents (Elt F)),
    StableHlo.nullary main_c_5 (constantI S_ 32 0#32),
    StableHlo.nullary main_c_6 (constantI S_ 32 511#32),
    StableHlo.TRef.unary (TRef.of main_c_5 : TRef sig ⟨S_, .i32⟩) main_call3.v0 id,
    StableHlo.TRef.unary main_call3.v0 main_call3.v1 (broadcastInDim S80x16900 ![] bcast_S_S80x16900),
    StableHlo.TRef.binary main_call3.v1 (TRef.of main_v16 : TRef sig ⟨S80x16900, .i32⟩) main_call3.v2 maxsi,
    StableHlo.TRef.unary (TRef.of main_c_6 : TRef sig ⟨S_, .i32⟩) main_call3.v3 id,
    StableHlo.TRef.unary main_call3.v3 main_call3.v4 (broadcastInDim S80x16900 ![] bcast_S_S80x16900),
    StableHlo.TRef.binary main_call3.v4 main_call3.v2 main_call3.v5 minsi,
    StableHlo.nullary main_c_7 (constantI S_ 32 0#32),
    StableHlo.unary main_c_7 main_v18 (broadcastInDim S80x16900 ![] bcast_S_S80x16900 : (⟨S_, .i32⟩ : BufTy).Contents (Elt F) → (⟨S80x16900, .i32⟩ : BufTy).Contents (Elt F)),
    StableHlo.binary main_v14 main_v18 main_v19 (cmpi .slt : (⟨S80x16900, .i32⟩ : BufTy).Contents (Elt F) → (⟨S80x16900, .i32⟩ : BufTy).Contents (Elt F) → (⟨S80x16900, .i1⟩ : BufTy).Contents (Elt F)),
    StableHlo.nullary main_c_8 (constantI S_ 32 512#32),
    StableHlo.unary main_c_8 main_v20 (broadcastInDim S80x16900 ![] bcast_S_S80x16900 : (⟨S_, .i32⟩ : BufTy).Contents (Elt F) → (⟨S80x16900, .i32⟩ : BufTy).Contents (Elt F)),
    StableHlo.binary main_v14 main_v20 main_v21 (addi : (⟨S80x16900, .i32⟩ : BufTy).Contents (Elt F) → (⟨S80x16900, .i32⟩ : BufTy).Contents (Elt F) → (⟨S80x16900, .i32⟩ : BufTy).Contents (Elt F)),
    StableHlo.ternary main_v19 main_v21 main_v14 main_v22 (select : (⟨S80x16900, .i1⟩ : BufTy).Contents (Elt F) → (⟨S80x16900, .i32⟩ : BufTy).Contents (Elt F) → (⟨S80x16900, .i32⟩ : BufTy).Contents (Elt F) → (⟨S80x16900, .i32⟩ : BufTy).Contents (Elt F)),
    StableHlo.nullary main_c_9 (constantI S_ 32 0#32),
    StableHlo.unary main_c_9 main_v23 (broadcastInDim S80x16900 ![] bcast_S_S80x16900 : (⟨S_, .i32⟩ : BufTy).Contents (Elt F) → (⟨S80x16900, .i32⟩ : BufTy).Contents (Elt F)),
    StableHlo.binary main_v10 main_v23 main_v24 (cmpi .slt : (⟨S80x16900, .i32⟩ : BufTy).Contents (Elt F) → (⟨S80x16900, .i32⟩ : BufTy).Contents (Elt F) → (⟨S80x16900, .i1⟩ : BufTy).Contents (Elt F)),
    StableHlo.nullary main_c_10 (constantI S_ 32 1024#32),
    StableHlo.unary main_c_10 main_v25 (broadcastInDim S80x16900 ![] bcast_S_S80x16900 : (⟨S_, .i32⟩ : BufTy).Contents (Elt F) → (⟨S80x16900, .i32⟩ : BufTy).Contents (Elt F)),
    StableHlo.binary main_v10 main_v25 main_v26 (addi : (⟨S80x16900, .i32⟩ : BufTy).Contents (Elt F) → (⟨S80x16900, .i32⟩ : BufTy).Contents (Elt F) → (⟨S80x16900, .i32⟩ : BufTy).Contents (Elt F)),
    StableHlo.ternary main_v24 main_v26 main_v10 main_v27 (select : (⟨S80x16900, .i1⟩ : BufTy).Contents (Elt F) → (⟨S80x16900, .i32⟩ : BufTy).Contents (Elt F) → (⟨S80x16900, .i32⟩ : BufTy).Contents (Elt F) → (⟨S80x16900, .i32⟩ : BufTy).Contents (Elt F)),
    StableHlo.unary main_v22 main_v28 (broadcastInDim S80x16900x1 ![0, 1] bcast_S80x16900_S80x16900x1_0_1 : (⟨S80x16900, .i32⟩ : BufTy).Contents (Elt F) → (⟨S80x16900x1, .i32⟩ : BufTy).Contents (Elt F)),
    StableHlo.unary main_v27 main_v29 (broadcastInDim S80x16900x1 ![0, 1] bcast_S80x16900_S80x16900x1_0_1 : (⟨S80x16900, .i32⟩ : BufTy).Contents (Elt F) → (⟨S80x16900x1, .i32⟩ : BufTy).Contents (Elt F)),
    StableHlo.binary main_v28 main_v29 main_v30 ((fun a b => concatenate S80x16900x2 2 [⟨S80x16900x1, a⟩, ⟨S80x16900x1, b⟩] concatenates_S80x16900x1_S80x16900x1_S80x16900x2_d2) : (⟨S80x16900x1, .i32⟩ : BufTy).Contents (Elt F) → (⟨S80x16900x1, .i32⟩ : BufTy).Contents (Elt F) → (⟨S80x16900x2, .i32⟩ : BufTy).Contents (Elt F)),
    StableHlo.binary main_arg0 main_v30 main_v31 ((fun x i => Host.gather gather_S8x3x512x1024_S80x16900x2_S8x3x80x16900_01_23_n_n_23_2_8311 x i) : (⟨S8x3x512x1024, .f32⟩ : BufTy).Contents (Elt F) → (⟨S80x16900x2, .i32⟩ : BufTy).Contents (Elt F) → (⟨S8x3x80x16900, .f32⟩ : BufTy).Contents (Elt F)),
    StableHlo.nullary main_c_11 (constantI S_ 32 0#32),
    StableHlo.unary main_c_11 main_v32 (broadcastInDim S80x16900 ![] bcast_S_S80x16900 : (⟨S_, .i32⟩ : BufTy).Contents (Elt F) → (⟨S80x16900, .i32⟩ : BufTy).Contents (Elt F)),
    StableHlo.binary main_v14 main_v32 main_v33 (cmpi .slt : (⟨S80x16900, .i32⟩ : BufTy).Contents (Elt F) → (⟨S80x16900, .i32⟩ : BufTy).Contents (Elt F) → (⟨S80x16900, .i1⟩ : BufTy).Contents (Elt F)),
    StableHlo.nullary main_c_12 (constantI S_ 32 512#32),
    StableHlo.unary main_c_12 main_v34 (broadcastInDim S80x16900 ![] bcast_S_S80x16900 : (⟨S_, .i32⟩ : BufTy).Contents (Elt F) → (⟨S80x16900, .i32⟩ : BufTy).Contents (Elt F)),
    StableHlo.binary main_v14 main_v34 main_v35 (addi : (⟨S80x16900, .i32⟩ : BufTy).Contents (Elt F) → (⟨S80x16900, .i32⟩ : BufTy).Contents (Elt F) → (⟨S80x16900, .i32⟩ : BufTy).Contents (Elt F)),
    StableHlo.ternary main_v33 main_v35 main_v14 main_v36 (select : (⟨S80x16900, .i1⟩ : BufTy).Contents (Elt F) → (⟨S80x16900, .i32⟩ : BufTy).Contents (Elt F) → (⟨S80x16900, .i32⟩ : BufTy).Contents (Elt F) → (⟨S80x16900, .i32⟩ : BufTy).Contents (Elt F)),
    StableHlo.nullary main_c_13 (constantI S_ 32 0#32),
    StableHlo.unary main_c_13 main_v37 (broadcastInDim S80x16900 ![] bcast_S_S80x16900 : (⟨S_, .i32⟩ : BufTy).Contents (Elt F) → (⟨S80x16900, .i32⟩ : BufTy).Contents (Elt F)),
    StableHlo.binary main_v13 main_v37 main_v38 (cmpi .slt : (⟨S80x16900, .i32⟩ : BufTy).Contents (Elt F) → (⟨S80x16900, .i32⟩ : BufTy).Contents (Elt F) → (⟨S80x16900, .i1⟩ : BufTy).Contents (Elt F)),
    StableHlo.nullary main_c_14 (constantI S_ 32 1024#32),
    StableHlo.unary main_c_14 main_v39 (broadcastInDim S80x16900 ![] bcast_S_S80x16900 : (⟨S_, .i32⟩ : BufTy).Contents (Elt F) → (⟨S80x16900, .i32⟩ : BufTy).Contents (Elt F)),
    StableHlo.binary main_v13 main_v39 main_v40 (addi : (⟨S80x16900, .i32⟩ : BufTy).Contents (Elt F) → (⟨S80x16900, .i32⟩ : BufTy).Contents (Elt F) → (⟨S80x16900, .i32⟩ : BufTy).Contents (Elt F)),
    StableHlo.ternary main_v38 main_v40 main_v13 main_v41 (select : (⟨S80x16900, .i1⟩ : BufTy).Contents (Elt F) → (⟨S80x16900, .i32⟩ : BufTy).Contents (Elt F) → (⟨S80x16900, .i32⟩ : BufTy).Contents (Elt F) → (⟨S80x16900, .i32⟩ : BufTy).Contents (Elt F)),
    StableHlo.unary main_v36 main_v42 (broadcastInDim S80x16900x1 ![0, 1] bcast_S80x16900_S80x16900x1_0_1 : (⟨S80x16900, .i32⟩ : BufTy).Contents (Elt F) → (⟨S80x16900x1, .i32⟩ : BufTy).Contents (Elt F)),
    StableHlo.unary main_v41 main_v43 (broadcastInDim S80x16900x1 ![0, 1] bcast_S80x16900_S80x16900x1_0_1 : (⟨S80x16900, .i32⟩ : BufTy).Contents (Elt F) → (⟨S80x16900x1, .i32⟩ : BufTy).Contents (Elt F)) ]

/-- Statements 61 to 120: the second, third and fourth gathers and the first two weighted terms with their sum. -/
abbrev ops1 : List (HloOp τ sig (Elt F)) :=
  [ StableHlo.binary main_v42 main_v43 main_v44 ((fun a b => concatenate S80x16900x2 2 [⟨S80x16900x1, a⟩, ⟨S80x16900x1, b⟩] concatenates_S80x16900x1_S80x16900x1_S80x16900x2_d2) : (⟨S80x16900x1, .i32⟩ : BufTy).Contents (Elt F) → (⟨S80x16900x1, .i32⟩ : BufTy).Contents (Elt F) → (⟨S80x16900x2, .i32⟩ : BufTy).Contents (Elt F)),
    StableHlo.binary main_arg0 main_v44 main_v45 ((fun x i => Host.gather gather_S8x3x512x1024_S80x16900x2_S8x3x80x16900_01_23_n_n_23_2_8311 x i) : (⟨S8x3x512x1024, .f32⟩ : BufTy).Contents (Elt F) → (⟨S80x16900x2, .i32⟩ : BufTy).Contents (Elt F) → (⟨S8x3x80x16900, .f32⟩ : BufTy).Contents (Elt F)),
    StableHlo.nullary main_c_15 (constantI S_ 32 0#32),
    StableHlo.unary main_c_15 main_v46 (broadcastInDim S80x16900 ![] bcast_S_S80x16900 : (⟨S_, .i32⟩ : BufTy).Contents (Elt F) → (⟨S80x16900, .i32⟩ : BufTy).Contents (Elt F)),
    StableHlo.binary main_v17 main_v46 main_v47 (cmpi .slt : (⟨S80x16900, .i32⟩ : BufTy).Contents (Elt F) → (⟨S80x16900, .i32⟩ : BufTy).Contents (Elt F) → (⟨S80x16900, .i1⟩ : BufTy).Contents (Elt F)),
    StableHlo.nullary main_c_16 (constantI S_ 32 512#32),
    StableHlo.unary main_c_16 main_v48 (broadcastInDim S80x16900 ![] bcast_S_S80x16900 : (⟨S_, .i32⟩ : BufTy).Contents (Elt F) → (⟨S80x16900, .i32⟩ : BufTy).Contents (Elt F)),
    StableHlo.binary main_v17 main_v48 main_v49 (addi : (⟨S80x16900, .i32⟩ : BufTy).Contents (Elt F) → (⟨S80x16900, .i32⟩ : BufTy).Contents (Elt F) → (⟨S80x16900, .i32⟩ : BufTy).Contents (Elt F)),
    StableHlo.ternary main_v47 main_v49 main_v17 main_v50 (select : (⟨S80x16900, .i1⟩ : BufTy).Contents (Elt F) → (⟨S80x16900, .i32⟩ : BufTy).Contents (Elt F) → (⟨S80x16900, .i32⟩ : BufTy).Contents (Elt F) → (⟨S80x16900, .i32⟩ : BufTy).Contents (Elt F)),
    StableHlo.nullary main_c_17 (constantI S_ 32 0#32),
    StableHlo.unary main_c_17 main_v51 (broadcastInDim S80x16900 ![] bcast_S_S80x16900 : (⟨S_, .i32⟩ : BufTy).Contents (Elt F) → (⟨S80x16900, .i32⟩ : BufTy).Contents (Elt F)),
    StableHlo.binary main_v10 main_v51 main_v52 (cmpi .slt : (⟨S80x16900, .i32⟩ : BufTy).Contents (Elt F) → (⟨S80x16900, .i32⟩ : BufTy).Contents (Elt F) → (⟨S80x16900, .i1⟩ : BufTy).Contents (Elt F)),
    StableHlo.nullary main_c_18 (constantI S_ 32 1024#32),
    StableHlo.unary main_c_18 main_v53 (broadcastInDim S80x16900 ![] bcast_S_S80x16900 : (⟨S_, .i32⟩ : BufTy).Contents (Elt F) → (⟨S80x16900, .i32⟩ : BufTy).Contents (Elt F)),
    StableHlo.binary main_v10 main_v53 main_v54 (addi : (⟨S80x16900, .i32⟩ : BufTy).Contents (Elt F) → (⟨S80x16900, .i32⟩ : BufTy).Contents (Elt F) → (⟨S80x16900, .i32⟩ : BufTy).Contents (Elt F)),
    StableHlo.ternary main_v52 main_v54 main_v10 main_v55 (select : (⟨S80x16900, .i1⟩ : BufTy).Contents (Elt F) → (⟨S80x16900, .i32⟩ : BufTy).Contents (Elt F) → (⟨S80x16900, .i32⟩ : BufTy).Contents (Elt F) → (⟨S80x16900, .i32⟩ : BufTy).Contents (Elt F)),
    StableHlo.unary main_v50 main_v56 (broadcastInDim S80x16900x1 ![0, 1] bcast_S80x16900_S80x16900x1_0_1 : (⟨S80x16900, .i32⟩ : BufTy).Contents (Elt F) → (⟨S80x16900x1, .i32⟩ : BufTy).Contents (Elt F)),
    StableHlo.unary main_v55 main_v57 (broadcastInDim S80x16900x1 ![0, 1] bcast_S80x16900_S80x16900x1_0_1 : (⟨S80x16900, .i32⟩ : BufTy).Contents (Elt F) → (⟨S80x16900x1, .i32⟩ : BufTy).Contents (Elt F)),
    StableHlo.binary main_v56 main_v57 main_v58 ((fun a b => concatenate S80x16900x2 2 [⟨S80x16900x1, a⟩, ⟨S80x16900x1, b⟩] concatenates_S80x16900x1_S80x16900x1_S80x16900x2_d2) : (⟨S80x16900x1, .i32⟩ : BufTy).Contents (Elt F) → (⟨S80x16900x1, .i32⟩ : BufTy).Contents (Elt F) → (⟨S80x16900x2, .i32⟩ : BufTy).Contents (Elt F)),
    StableHlo.binary main_arg0 main_v58 main_v59 ((fun x i => Host.gather gather_S8x3x512x1024_S80x16900x2_S8x3x80x16900_01_23_n_n_23_2_8311 x i) : (⟨S8x3x512x1024, .f32⟩ : BufTy).Contents (Elt F) → (⟨S80x16900x2, .i32⟩ : BufTy).Contents (Elt F) → (⟨S8x3x80x16900, .f32⟩ : BufTy).Contents (Elt F)),
    StableHlo.nullary main_c_19 (constantI S_ 32 0#32),
    StableHlo.unary main_c_19 main_v60 (broadcastInDim S80x16900 ![] bcast_S_S80x16900 : (⟨S_, .i32⟩ : BufTy).Contents (Elt F) → (⟨S80x16900, .i32⟩ : BufTy).Contents (Elt F)),
    StableHlo.binary main_v17 main_v60 main_v61 (cmpi .slt : (⟨S80x16900, .i32⟩ : BufTy).Contents (Elt F) → (⟨S80x16900, .i32⟩ : BufTy).Contents (Elt F) → (⟨S80x16900, .i1⟩ : BufTy).Contents (Elt F)),
    StableHlo.nullary main_c_20 (constantI S_ 32 512#32),
    StableHlo.unary main_c_20 main_v62 (broadcastInDim S80x16900 ![] bcast_S_S80x16900 : (⟨S_, .i32⟩ : BufTy).Contents (Elt F) → (⟨S80x16900, .i32⟩ : BufTy).Contents (Elt F)),
    StableHlo.binary main_v17 main_v62 main_v63 (addi : (⟨S80x16900, .i32⟩ : BufTy).Contents (Elt F) → (⟨S80x16900, .i32⟩ : BufTy).Contents (Elt F) → (⟨S80x16900, .i32⟩ : BufTy).Contents (Elt F)),
    StableHlo.ternary main_v61 main_v63 main_v17 main_v64 (select : (⟨S80x16900, .i1⟩ : BufTy).Contents (Elt F) → (⟨S80x16900, .i32⟩ : BufTy).Contents (Elt F) → (⟨S80x16900, .i32⟩ : BufTy).Contents (Elt F) → (⟨S80x16900, .i32⟩ : BufTy).Contents (Elt F)),
    StableHlo.nullary main_c_21 (constantI S_ 32 0#32),
    StableHlo.unary main_c_21 main_v65 (broadcastInDim S80x16900 ![] bcast_S_S80x16900 : (⟨S_, .i32⟩ : BufTy).Contents (Elt F) → (⟨S80x16900, .i32⟩ : BufTy).Contents (Elt F)),
    StableHlo.binary main_v13 main_v65 main_v66 (cmpi .slt : (⟨S80x16900, .i32⟩ : BufTy).Contents (Elt F) → (⟨S80x16900, .i32⟩ : BufTy).Contents (Elt F) → (⟨S80x16900, .i1⟩ : BufTy).Contents (Elt F)),
    StableHlo.nullary main_c_22 (constantI S_ 32 1024#32),
    StableHlo.unary main_c_22 main_v67 (broadcastInDim S80x16900 ![] bcast_S_S80x16900 : (⟨S_, .i32⟩ : BufTy).Contents (Elt F) → (⟨S80x16900, .i32⟩ : BufTy).Contents (Elt F)),
    StableHlo.binary main_v13 main_v67 main_v68 (addi : (⟨S80x16900, .i32⟩ : BufTy).Contents (Elt F) → (⟨S80x16900, .i32⟩ : BufTy).Contents (Elt F) → (⟨S80x16900, .i32⟩ : BufTy).Contents (Elt F)),
    StableHlo.ternary main_v66 main_v68 main_v13 main_v69 (select : (⟨S80x16900, .i1⟩ : BufTy).Contents (Elt F) → (⟨S80x16900, .i32⟩ : BufTy).Contents (Elt F) → (⟨S80x16900, .i32⟩ : BufTy).Contents (Elt F) → (⟨S80x16900, .i32⟩ : BufTy).Contents (Elt F)),
    StableHlo.unary main_v64 main_v70 (broadcastInDim S80x16900x1 ![0, 1] bcast_S80x16900_S80x16900x1_0_1 : (⟨S80x16900, .i32⟩ : BufTy).Contents (Elt F) → (⟨S80x16900x1, .i32⟩ : BufTy).Contents (Elt F)),
    StableHlo.unary main_v69 main_v71 (broadcastInDim S80x16900x1 ![0, 1] bcast_S80x16900_S80x16900x1_0_1 : (⟨S80x16900, .i32⟩ : BufTy).Contents (Elt F) → (⟨S80x16900x1, .i32⟩ : BufTy).Contents (Elt F)),
    StableHlo.binary main_v70 main_v71 main_v72 ((fun a b => concatenate S80x16900x2 2 [⟨S80x16900x1, a⟩, ⟨S80x16900x1, b⟩] concatenates_S80x16900x1_S80x16900x1_S80x16900x2_d2) : (⟨S80x16900x1, .i32⟩ : BufTy).Contents (Elt F) → (⟨S80x16900x1, .i32⟩ : BufTy).Contents (Elt F) → (⟨S80x16900x2, .i32⟩ : BufTy).Contents (Elt F)),
    StableHlo.binary main_arg0 main_v72 main_v73 ((fun x i => Host.gather gather_S8x3x512x1024_S80x16900x2_S8x3x80x16900_01_23_n_n_23_2_8311 x i) : (⟨S8x3x512x1024, .f32⟩ : BufTy).Contents (Elt F) → (⟨S80x16900x2, .i32⟩ : BufTy).Contents (Elt F) → (⟨S8x3x80x16900, .f32⟩ : BufTy).Contents (Elt F)),
    StableHlo.nullary main_cst (constant S_ .f32 0x3F800000#32),
    StableHlo.unary main_cst main_v74 (broadcastInDim S80x16900 ![] bcast_S_S80x16900 : (⟨S_, .f32⟩ : BufTy).Contents (Elt F) → (⟨S80x16900, .f32⟩ : BufTy).Contents (Elt F)),
    StableHlo.binary main_v74 main_v6 main_v75 (subf : (⟨S80x16900, .f32⟩ : BufTy).Contents (Elt F) → (⟨S80x16900, .f32⟩ : BufTy).Contents (Elt F) → (⟨S80x16900, .f32⟩ : BufTy).Contents (Elt F)),
    StableHlo.unary main_v75 main_v76 (broadcastInDim S1x1x80x16900 ![2, 3] bcast_S80x16900_S1x1x80x16900_2_3 : (⟨S80x16900, .f32⟩ : BufTy).Contents (Elt F) → (⟨S1x1x80x16900, .f32⟩ : BufTy).Contents (Elt F)),
    StableHlo.unary main_v76 main_v77 (broadcastInDim S8x3x80x16900 ![0, 1, 2, 3] bcast_S1x1x80x16900_S8x3x80x16900_0_1_2_3 : (⟨S1x1x80x16900, .f32⟩ : BufTy).Contents (Elt F) → (⟨S8x3x80x16900, .f32⟩ : BufTy).Contents (Elt F)),
    StableHlo.binary main_v31 main_v77 main_v78 (mulf : (⟨S8x3x80x16900, .f32⟩ : BufTy).Contents (Elt F) → (⟨S8x3x80x16900, .f32⟩ : BufTy).Contents (Elt F) → (⟨S8x3x80x16900, .f32⟩ : BufTy).Contents (Elt F)),
    StableHlo.nullary main_cst_23 (constant S_ .f32 0x3F800000#32),
    StableHlo.unary main_cst_23 main_v79 (broadcastInDim S80x16900 ![] bcast_S_S80x16900 : (⟨S_, .f32⟩ : BufTy).Contents (Elt F) → (⟨S80x16900, .f32⟩ : BufTy).Contents (Elt F)),
    StableHlo.binary main_v79 main_v7 main_v80 (subf : (⟨S80x16900, .f32⟩ : BufTy).Contents (Elt F) → (⟨S80x16900, .f32⟩ : BufTy).Contents (Elt F) → (⟨S80x16900, .f32⟩ : BufTy).Contents (Elt F)),
    StableHlo.unary main_v80 main_v81 (broadcastInDim S1x1x80x16900 ![2, 3] bcast_S80x16900_S1x1x80x16900_2_3 : (⟨S80x16900, .f32⟩ : BufTy).Contents (Elt F) → (⟨S1x1x80x16900, .f32⟩ : BufTy).Contents (Elt F)),
    StableHlo.unary main_v81 main_v82 (broadcastInDim S8x3x80x16900 ![0, 1, 2, 3] bcast_S1x1x80x16900_S8x3x80x16900_0_1_2_3 : (⟨S1x1x80x16900, .f32⟩ : BufTy).Contents (Elt F) → (⟨S8x3x80x16900, .f32⟩ : BufTy).Contents (Elt F)),
    StableHlo.binary main_v78 main_v82 main_v83 (mulf : (⟨S8x3x80x16900, .f32⟩ : BufTy).Contents (Elt F) → (⟨S8x3x80x16900, .f32⟩ : BufTy).Contents (Elt F) → (⟨S8x3x80x16900, .f32⟩ : BufTy).Contents (Elt F)),
    StableHlo.unary main_v6 main_v84 (broadcastInDim S1x1x80x16900 ![2, 3] bcast_S80x16900_S1x1x80x16900_2_3 : (⟨S80x16900, .f32⟩ : BufTy).Contents (Elt F) → (⟨S1x1x80x16900, .f32⟩ : BufTy).Contents (Elt F)),
    StableHlo.unary main_v84 main_v85 (broadcastInDim S8x3x80x16900 ![0, 1, 2, 3] bcast_S1x1x80x16900_S8x3x80x16900_0_1_2_3 : (⟨S1x1x80x16900, .f32⟩ : BufTy).Contents (Elt F) → (⟨S8x3x80x16900, .f32⟩ : BufTy).Contents (Elt F)),
    StableHlo.binary main_v45 main_v85 main_v86 (mulf : (⟨S8x3x80x16900, .f32⟩ : BufTy).Contents (Elt F) → (⟨S8x3x80x16900, .f32⟩ : BufTy).Contents (Elt F) → (⟨S8x3x80x16900, .f32⟩ : BufTy).Contents (Elt F)),
    StableHlo.nullary main_cst_24 (constant S_ .f32 0x3F800000#32),
    StableHlo.unary main_cst_24 main_v87 (broadcastInDim S80x16900 ![] bcast_S_S80x16900 : (⟨S_, .f32⟩ : BufTy).Contents (Elt F) → (⟨S80x16900, .f32⟩ : BufTy).Contents (Elt F)),
    StableHlo.binary main_v87 main_v7 main_v88 (subf : (⟨S80x16900, .f32⟩ : BufTy).Contents (Elt F) → (⟨S80x16900, .f32⟩ : BufTy).Contents (Elt F) → (⟨S80x16900, .f32⟩ : BufTy).Contents (Elt F)),
    StableHlo.unary main_v88 main_v89 (broadcastInDim S1x1x80x16900 ![2, 3] bcast_S80x16900_S1x1x80x16900_2_3 : (⟨S80x16900, .f32⟩ : BufTy).Contents (Elt F) → (⟨S1x1x80x16900, .f32⟩ : BufTy).Contents (Elt F)),
    StableHlo.unary main_v89 main_v90 (broadcastInDim S8x3x80x16900 ![0, 1, 2, 3] bcast_S1x1x80x16900_S8x3x80x16900_0_1_2_3 : (⟨S1x1x80x16900, .f32⟩ : BufTy).Contents (Elt F) → (⟨S8x3x80x16900, .f32⟩ : BufTy).Contents (Elt F)),
    StableHlo.binary main_v86 main_v90 main_v91 (mulf : (⟨S8x3x80x16900, .f32⟩ : BufTy).Contents (Elt F) → (⟨S8x3x80x16900, .f32⟩ : BufTy).Contents (Elt F) → (⟨S8x3x80x16900, .f32⟩ : BufTy).Contents (Elt F)),
    StableHlo.binary main_v83 main_v91 main_v92 (addf : (⟨S8x3x80x16900, .f32⟩ : BufTy).Contents (Elt F) → (⟨S8x3x80x16900, .f32⟩ : BufTy).Contents (Elt F) → (⟨S8x3x80x16900, .f32⟩ : BufTy).Contents (Elt F)) ]

/-- Statements 121 to 139: the last two weighted terms, the sums and the final reshape. -/
abbrev ops2 : List (HloOp τ sig (Elt F)) :=
  [ StableHlo.nullary main_cst_25 (constant S_ .f32 0x3F800000#32),
    StableHlo.unary main_cst_25 main_v93 (broadcastInDim S80x16900 ![] bcast_S_S80x16900 : (⟨S_, .f32⟩ : BufTy).Contents (Elt F) → (⟨S80x16900, .f32⟩ : BufTy).Contents (Elt F)),
    StableHlo.binary main_v93 main_v6 main_v94 (subf : (⟨S80x16900, .f32⟩ : BufTy).Contents (Elt F) → (⟨S80x16900, .f32⟩ : BufTy).Contents (Elt F) → (⟨S80x16900, .f32⟩ : BufTy).Contents (Elt F)),
    StableHlo.unary main_v94 main_v95 (broadcastInDim S1x1x80x16900 ![2, 3] bcast_S80x16900_S1x1x80x16900_2_3 : (⟨S80x16900, .f32⟩ : BufTy).Contents (Elt F) → (⟨S1x1x80x16900, .f32⟩ : BufTy).Contents (Elt F)),
    StableHlo.unary main_v95 main_v96 (broadcastInDim S8x3x80x16900 ![0, 1, 2, 3] bcast_S1x1x80x16900_S8x3x80x16900_0_1_2_3 : (⟨S1x1x80x16900, .f32⟩ : BufTy).Contents (Elt F) → (⟨S8x3x80x16900, .f32⟩ : BufTy).Contents (Elt F)),
    StableHlo.binary main_v59 main_v96 main_v97 (mulf : (⟨S8x3x80x16900, .f32⟩ : BufTy).Contents (Elt F) → (⟨S8x3x80x16900, .f32⟩ : BufTy).Contents (Elt F) → (⟨S8x3x80x16900, .f32⟩ : BufTy).Contents (Elt F)),
    StableHlo.unary main_v7 main_v98 (broadcastInDim S1x1x80x16900 ![2, 3] bcast_S80x16900_S1x1x80x16900_2_3 : (⟨S80x16900, .f32⟩ : BufTy).Contents (Elt F) → (⟨S1x1x80x16900, .f32⟩ : BufTy).Contents (Elt F)),
    StableHlo.unary main_v98 main_v99 (broadcastInDim S8x3x80x16900 ![0, 1, 2, 3] bcast_S1x1x80x16900_S8x3x80x16900_0_1_2_3 : (⟨S1x1x80x16900, .f32⟩ : BufTy).Contents (Elt F) → (⟨S8x3x80x16900, .f32⟩ : BufTy).Contents (Elt F)),
    StableHlo.binary main_v97 main_v99 main_v100 (mulf : (⟨S8x3x80x16900, .f32⟩ : BufTy).Contents (Elt F) → (⟨S8x3x80x16900, .f32⟩ : BufTy).Contents (Elt F) → (⟨S8x3x80x16900, .f32⟩ : BufTy).Contents (Elt F)),
    StableHlo.binary main_v92 main_v100 main_v101 (addf : (⟨S8x3x80x16900, .f32⟩ : BufTy).Contents (Elt F) → (⟨S8x3x80x16900, .f32⟩ : BufTy).Contents (Elt F) → (⟨S8x3x80x16900, .f32⟩ : BufTy).Contents (Elt F)),
    StableHlo.unary main_v6 main_v102 (broadcastInDim S1x1x80x16900 ![2, 3] bcast_S80x16900_S1x1x80x16900_2_3 : (⟨S80x16900, .f32⟩ : BufTy).Contents (Elt F) → (⟨S1x1x80x16900, .f32⟩ : BufTy).Contents (Elt F)),
    StableHlo.unary main_v102 main_v103 (broadcastInDim S8x3x80x16900 ![0, 1, 2, 3] bcast_S1x1x80x16900_S8x3x80x16900_0_1_2_3 : (⟨S1x1x80x16900, .f32⟩ : BufTy).Contents (Elt F) → (⟨S8x3x80x16900, .f32⟩ : BufTy).Contents (Elt F)),
    StableHlo.binary main_v73 main_v103 main_v104 (mulf : (⟨S8x3x80x16900, .f32⟩ : BufTy).Contents (Elt F) → (⟨S8x3x80x16900, .f32⟩ : BufTy).Contents (Elt F) → (⟨S8x3x80x16900, .f32⟩ : BufTy).Contents (Elt F)),
    StableHlo.unary main_v7 main_v105 (broadcastInDim S1x1x80x16900 ![2, 3] bcast_S80x16900_S1x1x80x16900_2_3 : (⟨S80x16900, .f32⟩ : BufTy).Contents (Elt F) → (⟨S1x1x80x16900, .f32⟩ : BufTy).Contents (Elt F)),
    StableHlo.unary main_v105 main_v106 (broadcastInDim S8x3x80x16900 ![0, 1, 2, 3] bcast_S1x1x80x16900_S8x3x80x16900_0_1_2_3 : (⟨S1x1x80x16900, .f32⟩ : BufTy).Contents (Elt F) → (⟨S8x3x80x16900, .f32⟩ : BufTy).Contents (Elt F)),
    StableHlo.binary main_v104 main_v106 main_v107 (mulf : (⟨S8x3x80x16900, .f32⟩ : BufTy).Contents (Elt F) → (⟨S8x3x80x16900, .f32⟩ : BufTy).Contents (Elt F) → (⟨S8x3x80x16900, .f32⟩ : BufTy).Contents (Elt F)),
    StableHlo.binary main_v101 main_v107 main_v108 (addf : (⟨S8x3x80x16900, .f32⟩ : BufTy).Contents (Elt F) → (⟨S8x3x80x16900, .f32⟩ : BufTy).Contents (Elt F) → (⟨S8x3x80x16900, .f32⟩ : BufTy).Contents (Elt F)),
    StableHlo.reshape main_v108 main_v109 rfl shapeCasts_S8x3x80x16900_S8x3x80x130x130 ]

/-- The whole line. -/
abbrev ops : List (HloOp τ sig (Elt F)) := ops0 ++ (ops1 ++ ops2)

-- a window is a chain of up to 110 binds once the calls are unfolded: the rewriting recurses once per statement
set_option maxRecDepth 4096 in
set_option maxHeartbeats 4000000 in
/-- The first window is its stretch of the line: the functions unfolded at their calls, sequencing reassociated. A
    window has no closing return, and a line run to its end returns the unit, which is the same. -/
theorem part0_eq (c : Dev nD) : main_part0 (F := F) c = seq ops0 := by
  simp only [main_part0, fn_remainder.body, fn_where.body, fn_clip.body, seq, bind_assoc, pure_bind]
  rfl

set_option maxRecDepth 4096 in
set_option maxHeartbeats 4000000 in
theorem part1_eq (c : Dev nD) : main_part1 (F := F) c = seq ops1 := by
  simp only [main_part1, seq, bind_assoc, pure_bind]
  rfl

set_option maxRecDepth 4096 in
theorem part2_eq (c : Dev nD) : main_part2 (F := F) c = seq ops2 := by
  simp only [main_part2, seq, bind_assoc, pure_bind]

/-- @main is the whole line: its three windows one after the other. -/
theorem main_eq (c : Dev nD) : main (F := F) c = seq ops := by
  simp only [main, part0_eq, part1_eq, part2_eq, seq_append, bind_assoc]

/-! ## What the buffers hold after the line -/

/-- The fold over two stretches is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

-- the vector operations stay folded while the two sides are compared: the comparison is of how they are composed,
-- and never needs what any of them does at an index
attribute [local irreducible] Host.gather Host.remsi Host.floor fptosi concatenate broadcastInDim extractStridedSlice
  shapeCast select cmpi andi addi minsi maxsi subf mulf addf constant constantI in
set_option maxRecDepth 65536 in
set_option maxHeartbeats 16000000 in
/-- After the line the result buffer holds the reference's arrangement of the resampling, as one term of the two
    arguments: each operation's result at its own buffer is its function of its operands' contents, at any other
    buffer what was there, and the composition so read off is the term, operation for operation. -/
theorem out_eq (V : Valuation τ sig (Elt Ideal)) :
    after (ops (F := Ideal)) V (main_v109 : DevRef τ sig)
      = Cert.Resample.refTerm (V (main_arg0 : DevRef τ sig)) (V (main_arg1 : DevRef τ sig)) := by
  simp only [ops, ops0, ops1, ops2, after_append]
  after_results_simp
  rfl

set_option maxRecDepth 65536 in
set_option maxHeartbeats 16000000 in
/-- No operation writes the first argument. -/
theorem arg0_eq (V : Valuation τ sig (Elt F)) :
    after (ops (F := F)) V (main_arg0 : DevRef τ sig) = V (main_arg0 : DevRef τ sig) := by
  simp only [ops, ops0, ops1, ops2, after_append]
  after_results_simp

set_option maxRecDepth 65536 in
set_option maxHeartbeats 16000000 in
/-- No operation writes the second argument. -/
theorem arg1_eq (V : Valuation τ sig (Elt F)) :
    after (ops (F := F)) V (main_arg1 : DevRef τ sig) = V (main_arg1 : DevRef τ sig) := by
  simp only [ops, ops0, ops1, ops2, after_append]
  after_results_simp

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., unary_bufs_sub ..,
    binary_bufs_sub .., binary_bufs_sub .., unary_bufs_sub .., unary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., nullary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub ..⟩
theorem ops1_sub : (ops1 : List (HloOp τ sig (Elt F))).Forall fun op => op.bufs ⊆ tcRefs τ sig :=
  ⟨binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., nullary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., binary_bufs_sub .., binary_bufs_sub ..⟩
theorem ops2_sub : (ops2 : List (HloOp τ sig (Elt F))).Forall fun op => op.bufs ⊆ tcRefs τ sig :=
  ⟨nullary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    binary_bufs_sub .., unary_bufs_sub .., unary_bufs_sub .., binary_bufs_sub .., binary_bufs_sub .., reshape_bufs_sub ..⟩
theorem ops_sub : (ops : List (HloOp τ sig (Elt F))).Forall fun op => op.bufs ⊆ tcRefs τ sig :=
  List.forall_append.2 ⟨ops0_sub, List.forall_append.2 ⟨ops1_sub, ops2_sub⟩⟩

/-- Every operation determines what it writes. -/
theorem ops_fresh : ∀ op ∈ (ops : List (HloOp τ sig (Elt F))), op.fresh = ∅ := by
  have h0 : (ops0 : List (HloOp τ sig (Elt F))).Forall fun op => op.fresh = ∅ := by
    simp only [List.Forall]; repeat' constructor
  have h1 : (ops1 : List (HloOp τ sig (Elt F))).Forall fun op => op.fresh = ∅ := by
    simp only [List.Forall]; repeat' constructor
  have h2 : (ops2 : List (HloOp τ sig (Elt F))).Forall fun op => op.fresh = ∅ := by
    simp only [List.Forall]; repeat' constructor
  exact List.forall_iff_forall_mem.1 (List.forall_append.2 ⟨h0, List.forall_append.2 ⟨h1, h2⟩⟩)

/-- On every device, from any memory with zero counters: every weakly fair execution of @main terminates with the
    result buffer at the reference's arrangement of the resampling of the two arguments' launch contents, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v109) = Cert.Resample.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v109).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ (fun _ => ops_fresh))

end Cert.ReferenceIdeal.RefRun

end
-- ==== Proof.RefValue.lean ====
/-
  The reference's value: the reference's arrangement of the resampling is the resampling.

  Read at an output index (b, c, f, p, q), the reference's term is, from the outside in: a layout change from points
  laid out flat (16900 per face) to a 130 × 130 grid, which reads point k = 130 p + q; sums and products of extended
  reals; weights spread over the 8 × 3 planes, which read the weight at (f, k); and four gathers. A gather reads the
  image at an index whose plane coordinates are the result's own and whose row and column are the two components of a
  start index — each read as a signed integer and clamped into the image. The start index pairs a row word and a column
  word, each made non-negative by adding the extent to a negative word. Where the row words are below 512 and the
  column words below 1024 none of this changes them: they are non-negative, inside the image, and their own remainders
  by 512 and by 1024. So each gather reads the corner the specification names, and the two sides are one expression.
-/
import proofs.«147664_j56410100465682_2_alg».proof.Proof.Terms
import Idealize.ShloMosaic.Lib.Pipeline.Value

noncomputable section

namespace Cert.Resample

open Idealize.ShloMosaic Idealize.ShloMosaic.ValueIdx

/-! ## The layout change, the spread weights and one minus a weight, read at an index -/

/-- The last layout change read at an index: entry (b, c, f, p, q) of the five-axis array is entry (b, c, f, 130 p + q)
    of the four-axis one, the two having the same row-major position. -/
theorem castOut_apply (a : Sgat.Idx → EReal) (b : Fin 8) (c : Fin 3) (f : Fin 80) (p q : Fin 130)
    (h : p.val * 130 + q.val < 16900) :
    shapeCast Sout a castOut (ix5 b c f p q) = a (ix4 b c f ⟨p.val * 130 + q.val, h⟩) := by
  refine shapeCast_apply a castOut _ _ ?_
  rw [Shape.rowMajor_val_four, Shape.rowMajor_val_five]
  show ((b.val * 3 + c.val) * 80 + f.val) * 16900 + (p.val * 130 + q.val)
    = (((b.val * 3 + c.val) * 80 + f.val) * 130 + p.val) * 130 + q.val
  omega

/-- A weight spread over the planes reads, at plane (b, c) and point (f, k), the weight at (f, k). -/
theorem spread_apply (w : FVec Ideal Spts .f32) (b : Fin 8) (c : Fin 3) (f : Fin 80) (k : Fin 16900) :
    spread w (ix4 b c f k) = w (ix2 f k) := by
  unfold spread
  refine (broadcastInDim_apply _ bcGat _ (ix4 b c f k) (ix4 (0 : Fin 1) (0 : Fin 1) f k) ?_).trans ?_
  · intro a
    match a with
    | ⟨0, _⟩ => rfl
    | ⟨1, _⟩ => rfl
    | ⟨2, _⟩ => rfl
    | ⟨3, _⟩ => rfl
  · refine broadcastInDim_apply _ bcOne w _ (ix2 f k) ?_
    intro a
    match a with
    | ⟨0, _⟩ => rfl
    | ⟨1, _⟩ => rfl

/-- One minus a weight, read at a point. -/
theorem oneMinus_apply (w : FVec Ideal Spts .f32) (j : Spts.Idx) : oneMinus w j = one - w j := by
  unfold oneMinus
  rw [subf_apply]
  rfl

/-! ## The gather's operand index, coordinate by coordinate -/

/-- The start-indices index at which result index (b, c, f, k) reads the first component of its start index. -/
theorem siIdx_zero (b : Fin 8) (c : Fin 3) (f : Fin 80) (k : Fin 16900) (m : Fin gdims.startIndexMap.length)
    (hm : m.val = 0) : gdims.siIdx (ix4 b c f k) m = ix3 f k (⟨0, by decide⟩ : Fin 2) := by
  obtain ⟨m, hlt⟩ := m
  obtain rfl : m = 0 := hm
  funext a; refine Fin.ext ?_
  match a with
  | ⟨0, _⟩ => rfl
  | ⟨1, _⟩ => rfl
  | ⟨2, _⟩ => rfl

/-- The start-indices index at which result index (b, c, f, k) reads the second component of its start index. -/
theorem siIdx_one (b : Fin 8) (c : Fin 3) (f : Fin 80) (k : Fin 16900) (m : Fin gdims.startIndexMap.length)
    (hm : m.val = 1) : gdims.siIdx (ix4 b c f k) m = ix3 f k (⟨1, by decide⟩ : Fin 2) := by
  obtain ⟨m, hlt⟩ := m
  obtain rfl : m = 1 := hm
  funext a; refine Fin.ext ?_
  match a with
  | ⟨0, _⟩ => rfl
  | ⟨1, _⟩ => rfl
  | ⟨2, _⟩ => rfl

/-- On a plane axis the slice starts at 0: the start index does not address it. -/
theorem start_plane0 (idx : IVec Smap 32) (j : Sgat.Idx) : gdims.start j idx (⟨0, by decide⟩ : Fin 4) = 0 := by
  unfold GatherDims.start; exact dif_neg (by decide)
theorem start_plane1 (idx : IVec Smap 32) (j : Sgat.Idx) : gdims.start j idx (⟨1, by decide⟩ : Fin 4) = 0 := by
  unfold GatherDims.start; exact dif_neg (by decide)

/-- On the row axis the slice starts at the first component of the start index, read signed and clamped. -/
theorem start_row (idx : IVec Smap 32) (b : Fin 8) (c : Fin 3) (f : Fin 80) (k : Fin 16900) :
    gdims.start (ix4 b c f k) idx (⟨2, by decide⟩ : Fin 4)
      = min (idx (ix3 f k (⟨0, by decide⟩ : Fin 2))).toInt.toNat 511 := by
  unfold GatherDims.start
  rw [dif_pos (show (⟨2, by decide⟩ : Fin 4) ∈ gdims.startIndexMap by decide)]
  rw [siIdx_zero b c f k _ (by decide)]
  rfl

/-- On the column axis the slice starts at the second component of the start index, read signed and clamped. -/
theorem start_col (idx : IVec Smap 32) (b : Fin 8) (c : Fin 3) (f : Fin 80) (k : Fin 16900) :
    gdims.start (ix4 b c f k) idx (⟨3, by decide⟩ : Fin 4)
      = min (idx (ix3 f k (⟨1, by decide⟩ : Fin 2))).toInt.toNat 1023 := by
  unfold GatherDims.start
  rw [dif_pos (show (⟨3, by decide⟩ : Fin 4) ∈ gdims.startIndexMap by decide)]
  rw [siIdx_one b c f k _ (by decide)]
  rfl

/-- The offset coordinate on the first plane axis is the result index's own first coordinate. -/
theorem offCoord_plane0 (b : Fin 8) (c : Fin 3) (f : Fin 80) (k : Fin 16900) :
    gdims.offCoord (ix4 b c f k) (⟨0, by decide⟩ : Fin 4) = b.val := by
  unfold GatherDims.offCoord
  rw [dif_pos (show (⟨0, by decide⟩ : Fin 4) ∈ gdims.sKept by decide)]
  rfl
/-- The offset coordinate on the second plane axis is the result index's own second coordinate. -/
theorem offCoord_plane1 (b : Fin 8) (c : Fin 3) (f : Fin 80) (k : Fin 16900) :
    gdims.offCoord (ix4 b c f k) (⟨1, by decide⟩ : Fin 4) = c.val := by
  unfold GatherDims.offCoord
  rw [dif_pos (show (⟨1, by decide⟩ : Fin 4) ∈ gdims.sKept by decide)]
  rfl
/-- The row and column axes are collapsed: no offset on them. -/
theorem offCoord_row (j : Sgat.Idx) : gdims.offCoord j (⟨2, by decide⟩ : Fin 4) = 0 :=
  GatherDims.offCoord_eq_zero _ _ _ (by decide)
theorem offCoord_col (j : Sgat.Idx) : gdims.offCoord j (⟨3, by decide⟩ : Fin 4) = 0 :=
  GatherDims.offCoord_eq_zero _ _ _ (by decide)

/-- The image index the gather reads for result index (b, c, f, k): the plane coordinates are the result's own, the row
    and the column are the two components of the start index at (f, k), read signed and clamped into the image. -/
theorem operandIdx_eq (idx : IVec Smap 32) (b : Fin 8) (c : Fin 3) (f : Fin 80) (k : Fin 16900) :
    gdims.operandIdx (ix4 b c f k) idx
      = ix4 b c (⟨min (idx (ix3 f k (⟨0, by decide⟩ : Fin 2))).toInt.toNat 511, by omega⟩ : Fin 512)
          (⟨min (idx (ix3 f k (⟨1, by decide⟩ : Fin 2))).toInt.toNat 1023, by omega⟩ : Fin 1024) := by
  funext a; refine Fin.ext ?_
  show gdims.start (ix4 b c f k) idx a + gdims.batchCoord (ix4 b c f k) a + gdims.offCoord (ix4 b c f k) a = _
  rw [GatherDims.batchCoord_eq_zero _ _ _ List.not_mem_nil, Nat.add_zero]
  match a with
  | ⟨0, _⟩ => exact (congrArg₂ (· + ·) (start_plane0 idx _) (offCoord_plane0 b c f k)).trans (Nat.zero_add _)
  | ⟨1, _⟩ => exact (congrArg₂ (· + ·) (start_plane1 idx _) (offCoord_plane1 b c f k)).trans (Nat.zero_add _)
  | ⟨2, _⟩ => exact (congrArg₂ (· + ·) (start_row idx b c f k) (offCoord_row _)).trans (Nat.add_zero _)
  | ⟨3, _⟩ => exact (congrArg₂ (· + ·) (start_col idx b c f k) (offCoord_col _)).trans (Nat.add_zero _)

/-! ## Words below 2 ^ 31: non-negative when read signed -/

/-- A word below 2 ^ 31 is not less than zero as a signed integer. -/
theorem slt_zero_of_lt (w : BitVec 32) (h : w.toNat < 2147483648) : IntOp.cmpi .slt w 0#32 = 0#1 := by
  have hs : w.slt 0#32 = false := by
    have hi : w.toInt = (w.toNat : Int) := BitVec.toInt_eq_toNat_of_lt (by omega)
    simp only [BitVec.slt, hi, BitVec.toInt_zero]
    exact decide_eq_false (by omega)
  unfold IntOp.cmpi
  simp only [hs]
  rfl

/-- A word below 2 ^ 31 read signed, then as a natural number, is the word read unsigned. -/
theorem toInt_toNat_of_lt (w : BitVec 32) (h : w.toNat < 2147483648) : w.toInt.toNat = w.toNat := by
  rw [BitVec.toInt_eq_toNat_of_lt (by omega)]
  rfl

/-! ## The start indices read at an index -/

/-- Where a word is below 2 ^ 31 the array made non-negative is the array itself. -/
theorem norm_apply (v : IVec Spts 32) (n : BitVec 32) (j : Spts.Idx) (h : (v j).toNat < 2147483648) :
    norm v n j = v j := by
  unfold norm
  rw [select_apply]
  have hc : cmpi .slt v (broadcastInDim Spts ![] bc (constantI Ssc 32 0#32)) j = 0#1 := slt_zero_of_lt (v j) h
  rw [hc, select_zero]

/-- Component 0 of the start index at (f, k) is the row word there, made non-negative. -/
theorem idxPair_zero (row col : IVec Spts 32) (f : Fin 80) (k : Fin 16900) :
    idxPair row col (ix3 f k (⟨0, by decide⟩ : Fin 2)) = norm row 512#32 (ix2 f k) := by
  unfold idxPair
  refine (concatenate_pair_apply_left _ _ _ cat (ix3 f k (⟨0, by decide⟩ : Fin 2)) rfl (ix3 f k (⟨0, by decide⟩ : Fin 1))
    ?_).trans ?_
  · intro a
    match a with
    | ⟨0, _⟩ => rfl
    | ⟨1, _⟩ => rfl
    | ⟨2, _⟩ => rfl
  · refine broadcastInDim_apply _ bcCol _ _ (ix2 f k) ?_
    intro a
    match a with
    | ⟨0, _⟩ => rfl
    | ⟨1, _⟩ => rfl

/-- Component 1 of the start index at (f, k) is the column word there, made non-negative. -/
theorem idxPair_one (row col : IVec Spts 32) (f : Fin 80) (k : Fin 16900) :
    idxPair row col (ix3 f k (⟨1, by decide⟩ : Fin 2)) = norm col 1024#32 (ix2 f k) := by
  unfold idxPair
  refine (concatenate_pair_apply_right _ _ _ cat (ix3 f k (⟨1, by decide⟩ : Fin 2)) rfl rfl
    (ix3 f k (⟨0, by decide⟩ : Fin 1)) ?_ rfl).trans ?_
  · intro a ha
    match a, ha with
    | ⟨0, _⟩, _ => rfl
    | ⟨1, _⟩, _ => rfl
    | ⟨2, _⟩, ha => exact absurd rfl ha
  · refine broadcastInDim_apply _ bcCol _ _ (ix2 f k) ?_
    intro a
    match a with
    | ⟨0, _⟩ => rfl
    | ⟨1, _⟩ => rfl

/-! ## The gather read at an index -/

/-- THE GATHER READ AT (b, c, f, k): where every row word is below 512 and every column word below 1024, the image
    entry of plane (b, c) at the row and column words of point (f, k). The words are non-negative, so making them
    non-negative changes nothing; they are inside the image, so the clamp changes nothing; and for the same reason the
    remainders in the corner's spelling change nothing. -/
theorem take_apply (x : FVec Ideal Simg .f32) (row col : IVec Spts 32)
    (hr : ∀ k, (row k).toNat < 512) (hc : ∀ k, (col k).toNat < 1024)
    (b : Fin 8) (c : Fin 3) (f : Fin 80) (k : Fin 16900) :
    take x row col (ix4 b c f k) = corner x b c (row (ix2 f k)) (col (ix2 f k)) := by
  have h2 := hr (ix2 f k)
  have h3 := hc (ix2 f k)
  have e2 : min (idxPair row col (ix3 f k (⟨0, by decide⟩ : Fin 2))).toInt.toNat 511 = (row (ix2 f k)).toNat % 512 := by
    rw [idxPair_zero, norm_apply _ _ _ (by omega), toInt_toNat_of_lt _ (by omega)]
    omega
  have e3 : min (idxPair row col (ix3 f k (⟨1, by decide⟩ : Fin 2))).toInt.toNat 1023 = (col (ix2 f k)).toNat % 1024 := by
    rw [idxPair_one, norm_apply _ _ _ (by omega), toInt_toNat_of_lt _ (by omega)]
    omega
  unfold take corner Host.gather
  rw [operandIdx_eq]
  refine congrArg x ?_
  funext a
  match a with
  | ⟨0, _⟩ => rfl
  | ⟨1, _⟩ => rfl
  | ⟨2, _⟩ => exact Fin.ext e2
  | ⟨3, _⟩ => exact Fin.ext e3

/-! ## The reference's value -/

/-- The reference's arrangement is the resampling, given that the clamped rows are below 512 and the wrapped columns
    below 1024: at (b, c, f, p, q) the last layout change reads point 130 p + q of face f, there the sums, products and
    differences are the extended reals', each spread weight is the weight at the point, and each gathered entry is the
    corner the specification names. -/
theorem refTerm_eq_G_of (x : FVec Ideal Simg .f32) (sm : FVec Ideal Smap .f32)
    (hy0 : ∀ k, (y0c sm k).toNat < 512) (hy1 : ∀ k, (y1c sm k).toNat < 512)
    (hx0 : ∀ k, (x0w sm k).toNat < 1024) (hx1 : ∀ k, (x1w sm k).toNat < 1024) :
    refTerm x sm = G x sm := by
  funext i
  obtain ⟨b, c, f, p, q, rfl⟩ : ∃ (b : Fin 8) (c : Fin 3) (f : Fin 80) (p q : Fin 130), i = ix5 b c f p q :=
    ⟨i 0, i 1, i 2, i 3, i 4, eq_ix5 i⟩
  have hk : p.val * 130 + q.val < 16900 := by omega
  unfold refTerm
  rw [castOut_apply _ b c f p q hk]
  simp only [addf_apply, mulf_apply, spread_apply, oneMinus_apply,
    take_apply x (y0c sm) (x0w sm) hy0 hx0, take_apply x (y0c sm) (x1w sm) hy0 hx1,
    take_apply x (y1c sm) (x0w sm) hy1 hx0, take_apply x (y1c sm) (x1w sm) hy1 hx1]
  rfl

end Cert.Resample

end
-- ==== Proof.Finite.lean ====
/-
  The precondition read back: every entry of the image is a real number.

  The precondition is the conjunction of two "every entry has absolute value below +inf" tests, one per input. Its
  first half, read at an index of the image, says max (x i) (-(x i)) < +inf on the extended reals, which excludes both
  infinities.
-/
import proofs.«147664_j56410100465682_2_alg».proof.Proof.Spec
import proofs.«147664_j56410100465682_2_alg».proof.Pre_finite_inputs
import proofs.«147664_j56410100465682_2_alg».proof.Proof.Gen.Pre_finite_inputs
import Idealize.ShloMosaic.Lib.ReduceAll

noncomputable section

namespace Cert.Resample

open Idealize.ShloMosaic Idealize.ShloMosaic.ValueIdx

/-- The pattern 0x7F800000 denotes +inf. -/
private theorem inf_bits : Ideal.ofBits .f32 0x7F800000#32 = (⊤ : EReal) := by
  simp [Ideal.ofBits, Ideal.ieee]

/-- An extended real whose absolute value is below +inf is a real. -/
private theorem real_of_abs_lt_top (a : EReal) (h : max a (-a) < ⊤) : ∃ r : ℝ, a = (r : EReal) := by
  induction a using EReal.rec with
  | bot => simp at h
  | coe r => exact ⟨r, rfl⟩
  | top => simp at h

/-- The bit of a decided proposition is 1 exactly when the proposition holds. -/
private theorem ofBool_decide_one (p : Prop) [Decidable p] : BitVec.ofBool (decide p) = 1#1 ↔ p := by
  by_cases hp : p
  · simp [hp]
  · simp [hp]

/-- Under the precondition every entry of the image is a real number. -/
theorem finite_of_pre [Cert.Pre_finite_inputs.Facts] (x : FVec Ideal Simg .f32) (sm : FVec Ideal Smap .f32)
    (h : Cert.Pre_finite_inputs.fn (F := Ideal) x sm = fun _ => 1#1) : ∀ i : Simg.Idx, ∃ r : ℝ, x i = (r : EReal) := by
  intro i
  -- a scalar's shape has one index
  haveI : Subsingleton Cert.Pre_finite_inputs.S_.Idx := ⟨fun a b => funext fun d => d.elim0⟩
  have h0 := congrFun h ValueIdx.ix0
  dsimp only [Cert.Pre_finite_inputs.fn] at h0
  -- the first conjunct: the test on the image
  have h1 := (IntOp.andi_eq_one.1 h0).1
  -- which holds at every index
  have h2 := Host.reduce_andi_all _ _ _ _ _ h1 i
  have h3 : BitVec.ofBool (decide (max (x i) (-(x i)) < Ideal.ofBits .f32 0x7F800000#32)) = 1#1 := h2
  rw [inf_bits, ofBool_decide_one] at h3
  exact real_of_abs_lt_top _ h3

end Cert.Resample

end
-- ==== Proof.lean ====
/-
  The certificate: a bilinear resampling of an image at a sample map, computed by a kernel that selects rows and
  columns with one-hot products, against the reference that gathers.

  Both programs compute, from the sample map alone, the same fractional weights, wrapped columns and clamped rows
  (Proof/Spec.lean). The reference gathers the four corner entries and blends them; read index by index that is the
  specification G (Proof/RefValue.lean over the run of Proof/RefRun.lean). The kernel pads and flattens the prelude
  arrays, splits the image into itself and its difference from itself — zero, because the image is finite: the one
  place the precondition is used —, picks each corner as a sum of selector products in which exactly one term is not
  zero, and blends; its flat result, cut back to the unpadded points, is again G (Proof/Blocks.lean,
  Proof/KernelValue.lean, Proof/KernelRun.lean). The frames of the two kernel programs are the generated ones; the
  reference's frame is its run with the result dropped; the idealization rewrote nothing.
-/
import proofs.«147664_j56410100465682_2_alg».proof.Defs
import proofs.«147664_j56410100465682_2_alg».proof.Proof.Gen.Kernel
import proofs.«147664_j56410100465682_2_alg».proof.Proof.Gen.Kernel.Skeleton
import proofs.«147664_j56410100465682_2_alg».proof.Proof.Gen.Kernel.Launch
import proofs.«147664_j56410100465682_2_alg».proof.Proof.Gen.Kernel.Points
import proofs.«147664_j56410100465682_2_alg».proof.Proof.Gen.Kernel.Frame
import proofs.«147664_j56410100465682_2_alg».proof.Proof.Gen.KernelIdeal
import proofs.«147664_j56410100465682_2_alg».proof.Proof.Gen.KernelIdeal.Skeleton
import proofs.«147664_j56410100465682_2_alg».proof.Proof.Gen.KernelIdeal.Launch
import proofs.«147664_j56410100465682_2_alg».proof.Proof.Gen.KernelIdeal.Points
import proofs.«147664_j56410100465682_2_alg».proof.Proof.Gen.KernelIdeal.Frame
import proofs.«147664_j56410100465682_2_alg».proof.Proof.Gen.ReferenceIdeal
import proofs.«147664_j56410100465682_2_alg».proof.Proof.Gen.Pre_finite_inputs
import proofs.«147664_j56410100465682_2_alg».proof.Proof.KernelRun
import proofs.«147664_j56410100465682_2_alg».proof.Proof.RefRun
import proofs.«147664_j56410100465682_2_alg».proof.Proof.RefValue
import proofs.«147664_j56410100465682_2_alg».proof.Proof.SpecFacts
import proofs.«147664_j56410100465682_2_alg».proof.Proof.Finite
import Idealize.ShloMosaic.Adequacy
import Idealize.ShloMosaic.Init

noncomputable section

namespace Cert.Proof

open Idealize.ShloMosaic Idealize.SL.Sem Cert.Resample

/-- The reference's result term is the specification. -/
theorem refTerm_eq_G (x : FVec Ideal Simg .f32) (sm : FVec Ideal Smap .f32) : refTerm x sm = G x sm :=
  refTerm_eq_G_of x sm (y0c_lt sm) (y1c_lt sm) (x0w_lt sm) (x1w_lt sm)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- From memories agreeing on the arguments, with a finite image, both idealized programs end at the resampled
    array of the arguments. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KRun.run m ρ (fun c => finite_of_pre _ _ (hpre c)), ?_⟩
  refine (θ_run Cert.ReferenceIdeal.defs _ _).mono (fun _ h c => ⟨(h c).1.trans ?_, (h c).2⟩)
    (Cert.ReferenceIdeal.RefRun.run m' ρ')
  rw [(hagree c).1, (hagree c).2]
  exact refTerm_eq_G _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
